-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x1024 : Shape := ⟨2, ![4096, 1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x4096 .f32) (main_arg1 : FVec F S4096x1024 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x4096 : Shape := ⟨2, ![4096, 4096]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S512x4096 : Shape := ⟨2, ![512, 4096]⟩
abbrev S256x4096 : Shape := ⟨2, ![256, 4096]⟩
abbrev S512x1 : Shape := ⟨2, ![512, 1]⟩
abbrev S1x256 : Shape := ⟨2, ![1, 256]⟩
abbrev S512x1024 : Shape := ⟨2, ![512, 1024]⟩
abbrev S512x256 : Shape := ⟨2, ![512, 256]⟩
abbrev S256x1024 : Shape := ⟨2, ![256, 1024]⟩

abbrev nBuf : Space → Nat
  | .hbm => 11
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S1x4096, .f32⟩
  | .hbm, ⟨10, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S512x1, .f32⟩
  | .local _ .vmem, ⟨5, _⟩ => ⟨S512x1, .f32⟩
  | .local _ .vmem, ⟨6, _⟩ => ⟨S1x256, .f32⟩
  | .local _ .vmem, ⟨7, _⟩ => ⟨S1x256, .f32⟩
  | .local _ .vmem, ⟨8, _⟩ => ⟨S4096x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v21 : BitVec 32 := Scalar.muli arg1 c256_i32
  v21
def k0_off1 (i : grid0.Coords) : Fin 2 → Nat :=
  let arg1 : BitVec 32 := BitVec.ofNat 32 (i 1).val
  let c256_i32 : BitVec 32 := 256#32
  let v21 : BitVec 32 := Scalar.muli arg1 c256_i32
  let v22 : BitVec 32 := v21
  let v23 : Index := Scalar.indexCast v22
  let c0_10 : Index := 0#32
  ![v23.toNat, 0]
def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_16 : BitVec 32 := 0#32
  let v35 : BitVec 1 := Scalar.cmpi .ne v34 c0_i32_16
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  reducesTo_S4096x4096_S4096_d1 : S4096x4096.ReducesTo [1] S4096
  h_S_ : 0 < S_.numel
  shapeCasts_S4096_S4096x1 : S4096.ShapeCasts S4096x1
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S512x1_S512x256 : S512x1.Broadcasts S512x256
  broadcasts_S1x256_S512x256 : S1x256.Broadcasts S512x256
  h_S256x1024 : 0 < S256x1024.numel
  shapeCasts_S256x1024_S256x1024 : S256x1024.ShapeCasts S256x1024
  dot_S512x4096_S256x4096_S512x256_1_1_0_0_n_n_wf : DotDims.WF S512x4096 S256x4096 S512x256 [1] [1] [0] [0] [] []
  dot_S512x256_S256x1024_S512x1024_1_0_0_1_n_n_wf : DotDims.WF S512x256 S256x1024 S512x1024 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x1024.size a ≤ S4096x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .f32 = 32 ∨ (Rect.block (s := S4096x1024) S512x1024.size (cc0_transform_5 i) (hinb0_5 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x4096_S4096x4096_1_0 : S4096x4096.Transposes [1, 0] S4096x4096
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.FrameK.Base.lean ====
/-
  What the three cases of the kernel body's run share: @main up to the region, the arrays as the region finds
  them, each window's block at a grid point, the two conditions of the body decided over the grid, and the
  staging memrefs.

  The grid has 8 × 16 points, point `t` at row-block `t / 16` and column-block `t % 16`. The body clears its
  accumulator when the column-block is 0, adds one column-block's contribution at every point, and copies the
  accumulator to the output block when the column-block is 15.
-/
import proofs.«175931_j86036784874092_2_alg».proof.Proof.Gen.Kernel.Launch
import proofs.«175931_j86036784874092_2_alg».proof.Proof.Gen.Kernel.Skeleton
import proofs.«175931_j86036784874092_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the eight host operations before it (the two roundings
    of the arguments, the squared row lengths and their two layouts). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place: unfetched, the block index has
    not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place: unfetched, the block index has
    not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place: unfetched, the block index has
    not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place: unfetched, the block index has
    not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place: unfetched, the block index has
    not moved since the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The accumulator is cleared: the column-block is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The accumulator is copied out: the column-block is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the output window is idle -/

/-- Where the accumulator is not copied out the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- Where it is copied out the window is live. -/
theorem liveAt0_5 : ∀ t : Fin cfg0.N, cond0_1 (grid0.coords t) → cfg0.idle 5 (grid0.coords t) = false := by decide +kernel

/-! ## The staging memrefs -/

/-- One staging buffer of the output window, through which its contents are stated. -/
abbrev VO0_5 : View sig .tc .vmem S512x1024 .f32 := (Memref.whole cc0_stg5_0 : Memref sig .tc .vmem S512x1024 .f32).view
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0_0 : Memref sig .tc .vmem S512x1024 .f32 := Memref.whole cc0_scratch0
abbrev VS0_0 : View sig .tc .vmem S512x1024 .f32 := scM0_0.view

/-- The core's scoped buffers that are no staging buffer are the accumulator alone, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Hand

end
-- ==== Proof.FrameK.RunA.lean ====
/-
  The kernel body's run in case A: the column-block is 0 (the accumulator is cleared, then added to; nothing is copied out).
  On whole staging memrefs holding the five input blocks, the body runs and leaves the accumulator with the
  pieces its stores wrote; the output's buffer is handed back untouched. The pieces are found by running the body.
-/
import proofs.«175931_j86036784874092_2_alg».proof.Proof.FrameK.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i)
    (x0 : Vec F S512x4096 .bf16) (x1 : Vec F S256x4096 .bf16) (x2 : Vec F S512x1 .f32) (x3 : Vec F S1x256 .f32) (x4 : Vec F S4096x1024 .bf16) :
    { LS0 : List (View.Piece (Elt F) S512x1024 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__rbf_matmul_kernel i arg2 harg2 arg3 harg3 arg4 harg4 arg5 harg5 arg6 harg6 arg7 harg7 arg8 harg8) K } := by
  refine ⟨?_, fun xi5 E K => ?run⟩
  case run =>
    simp only [cc0__rbf_matmul_kernel_eq_skeleton]; unfold cc0__rbf_matmul_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.FrameK.RunB.lean ====
/-
  The kernel body's run in case B: the column-block is neither 0 nor 15 (the accumulator is added to).
  On whole staging memrefs holding the five input blocks, the body runs and leaves the accumulator with the
  pieces its stores wrote; the output's buffer is handed back untouched. The pieces are found by running the body.
-/
import proofs.«175931_j86036784874092_2_alg».proof.Proof.FrameK.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) :
    { LS0 : List (View.Piece (Elt F) S512x1024 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__rbf_matmul_kernel i arg2 harg2 arg3 harg3 arg4 harg4 arg5 harg5 arg6 harg6 arg7 harg7 arg8 harg8) K } := by
  refine ⟨?_, fun xi5 E K => ?run⟩
  case run =>
    simp only [cc0__rbf_matmul_kernel_eq_skeleton]; unfold cc0__rbf_matmul_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.FrameK.RunC.lean ====
/-
  The kernel body's run in case C: the column-block is 15 (the accumulator is added to, then copied to the output block).
  On whole staging memrefs holding the five input blocks, the body runs and leaves the accumulator with the
  pieces its stores wrote, and the output block with the piece its last store wrote. The pieces are found by running the body.
-/
import proofs.«175931_j86036784874092_2_alg».proof.Proof.FrameK.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) :
    Σ' (L5 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__rbf_matmul_kernel i arg2 harg2 arg3 harg3 arg4 harg4 arg5 harg5 arg6 harg6 arg7 harg7 arg8 harg8) K } := by
  refine ⟨?_, ?_, fun E K => ?run⟩
  case run =>
    simp only [cc0__rbf_matmul_kernel_eq_skeleton]; unfold cc0__rbf_matmul_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.LibSharedFrame.lean ====
/-
  The frame run of a pipelined kernel that carries something in a scratch buffer from one grid point to the
  next, for a kernel whose input windows may read ONE array (the same matrix handed to the kernel twice, once
  per block shape).

  The library's tracked frame run asks that the windows' arrays be pairwise distinct buffers, and uses that in
  one place only: to deal each array, held whole at the launch, to the one window on it. Here that dealing is a
  hypothesis (`hsplit`): the certificate says how the distinct buffers behind the arrays, each whole at its
  contents at the region's entry, make the proof data's arrays at entry — an array read by two input windows is
  split between them, each window holding it at its own share. Everything else is as in the library's run: the
  invariant is the certificate's own at every point, entered from the core's scoped buffers that are no staging
  buffer (the scratch, at any contents) and returned to them after the last point; the unscoped buffers that are
  no window's array bypass the region and are read back unchanged. The kernel uses no semaphore of its own and
  does not touch the generator register, which is let go.
-/
import Idealize.ShloMosaic.Lib.Pipeline.Frame

noncomputable section

namespace Cert.Lib.SharedFrame

open Idealize.ShloMosaic Idealize.ShloMosaic.Pipeline Idealize.ShloMosaic.TcCoe
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run with a tracking invariant for windows that may share arrays: from any memory with zero
    counters every weakly fair execution of @main terminates, every array of the pipeline ends at what the library
    computes from the proof data (`Dat.arrAt … N`) and every other unscoped buffer at its contents at the region's
    entry. `hsplit` deals the buffers behind the arrays to the windows; `hin` / `hout` enter the invariant from the
    scoped rest and give the scoped rest back. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr [HU]
      · iempintro
      · iexact HU)
    (hin := fun c => (show _ ⊢ (scopedRest (Ix := Unit) (Name := ℕ) (U := UR sig nD τ) (Lvl := ℕ) (Val := Val) (cfgs p).spec c : sProp 𝕄) from by
        iintro ⟨-, HR⟩; iexact HR).trans (hin c))
    (hout := fun c => (hout c).trans (by
        iintro HR
        isplitr [HR]
        · iempintro
        · iexact HR))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib.SharedFrame

end
-- ==== Proof.FrameK.Frame.lean ====
/-
  The frame of the program: what the accumulator and the output block hold after each grid point, the proof
  data of the pipeline, the body obligation at every point, the run, and the frame claim.

  After point `t` the accumulator holds: at a column-block 0 point, the zero splat plus that block's
  contribution; at any other point, what the point before left plus this block's contribution. The output
  block is stored once per row-block, at column-block 15, with the accumulator's final value; at the other
  points the output window is idle and is not written back.
-/
import proofs.«175931_j86036784874092_2_alg».proof.Proof.FrameK.RunC
import proofs.«175931_j86036784874092_2_alg».proof.Proof.LibSharedFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A's stores (the clearing store, then the accumulating store) cover the accumulator. -/
theorem scover0_A (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i)
    (x0 : Vec F S512x4096 .bf16) (x1 : Vec F S256x4096 .bf16) (x2 : Vec F S512x1 .f32) (x3 : Vec F S1x256 .f32) (x4 : Vec F S4096x1024 .bf16) (y : S512x1024.Idx) :
    ∃ pc ∈ (kernelRun0_A c i arg2 harg2 arg3 harg3 arg4 harg4 arg5 harg5 arg6 harg6 arg7 harg7 arg8 harg8 hc0 hc1 x0 x1 x2 x3 x4).1, y ∈ pc.1.set :=
  View.cover_of_tiledL (kernelRun0_A c i arg2 harg2 arg3 harg3 arg4 harg4 arg5 harg5 arg6 harg6 arg7 harg7 arg8 harg8 hc0 hc1 x0 x1 x2 x3 x4).1 S512x1024.size (by sl_kernel_rfl) y

/-- What case A leaves in the accumulator. -/
def sout0_A (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i)
    (x0 : Vec F S512x4096 .bf16) (x1 : Vec F S256x4096 .bf16) (x2 : Vec F S512x1 .f32) (x3 : Vec F S1x256 .f32) (x4 : Vec F S4096x1024 .bf16) : Vec F S512x1024 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).1)

/-- Case B's store covers the accumulator. -/
theorem scover0_B (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) (y : S512x1024.Idx) :
    ∃ pc ∈ (kernelRun0_B c i arg2 harg2 arg3 harg3 arg4 harg4 arg5 harg5 arg6 harg6 arg7 harg7 arg8 harg8 hc0 hc1 x0 x1 x2 x3 x4 xs0).1, y ∈ pc.1.set :=
  View.cover_of_tiledL (kernelRun0_B c i arg2 harg2 arg3 harg3 arg4 harg4 arg5 harg5 arg6 harg6 arg7 harg7 arg8 harg8 hc0 hc1 x0 x1 x2 x3 x4 xs0).1 S512x1024.size (by sl_kernel_rfl) y

/-- What case B leaves in the accumulator. -/
def sout0_B (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) : Vec F S512x1024 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).1)

/-- Case C's store covers the accumulator, -/
theorem scover0_C (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) (y : S512x1024.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S512x1024.size (by sl_kernel_rfl) y

/-- and its copy covers the output block. -/
theorem cover0_C (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) (y : S512x1024.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S512x1024.size (by sl_kernel_rfl) y

/-- What case C leaves in the accumulator. -/
def sout0_C (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) : Vec F S512x1024 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

/-- What case C leaves in the output block's staging buffer. -/
def out0_C (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) : Vec F S512x1024 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-! ## The accumulator and the output block after each point -/

/-- What the accumulator holds after the body at position `n`: the case the closed forms select at `n`, run at
    the point's memrefs and input blocks, over what the point before left unless the point clears it. -/
def accAt (c : Dev nD) : (n : ℕ) → n < cfg0.N → Vec F S512x1024 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 16 = 0 then
      sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      if h1 : (n + 1) % 16 = 15 then
        sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (Nat.lt_of_succ_lt hn))
      else
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (Nat.lt_of_succ_lt hn))

/-- The accumulator before position `n ≠ 0` is what position `n - 1` left. -/
abbrev accPrev (c : Dev nD) (t : Fin cfg0.N) : Vec F S512x1024 .f32 :=
  accAt m c (t.val - 1) (Nat.lt_of_le_of_lt (Nat.sub_le _ _) t.isLt)

theorem accAt_A (c : Dev nD) (t : Fin cfg0.N) (h0 : t.val % 16 = 0) (h1 : ¬t.val % 16 = 15) :
    accAt m c t.val t.isLt = sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t) := by
  obtain ⟨n, hn⟩ := t
  cases n with
  | zero => exact rfl
  | succ n => exact (dif_pos h0).trans rfl

theorem accAt_B (c : Dev nD) (t : Fin cfg0.N) (h0 : ¬t.val % 16 = 0) (h1 : ¬t.val % 16 = 15) :
    accAt m c t.val t.isLt = sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (accPrev m c t) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg0.N) (h0 : ¬t.val % 16 = 0) (h1 : t.val % 16 = 15) :
    accAt m c t.val t.isLt = sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (accPrev m c t) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at point `t`: at a column-block 15 point the copy
    of the accumulator; at the other points the window is idle and not written back, and nothing consults this. -/
def outAt (c : Dev nD) (t : Fin cfg0.N) : Vec F S512x1024 .f32 :=
  if h1 : t.val % 16 = 15 then
    out0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => (fun h => by omega) ((hcond0_0 t).mp h)) ((hcond0_1 t).mpr h1) (iblk m c 0 t) (iblk m c 1 t) (iblk m c 2 t) (iblk m c 3 t) (iblk m c 4 t) (accPrev m c t)
  else accAt m c t.val t.isLt

theorem outAt_C (c : Dev nD) (t : Fin cfg0.N) (h0 : ¬t.val % 16 = 0) (h1 : t.val % 16 = 15) :
    outAt m c t = out0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (accPrev m c t) := by
  unfold outAt; exact (dif_pos h1).trans rfl

/-- The region invariant before position `n`: the accumulator at anything before the first point, afterwards at what
    the point before left in it. -/
def PhiS (c : Dev nD) : (n : ℕ) → n ≤ cfg0.N → sProp 𝕄
  | 0, _ => iprop(∃ d, owns (c : Thread nD τ) scM0_0 fullShare d)
  | n + 1, hn => owns (c : Thread nD τ) scM0_0 fullShare (accAt m c n hn)

theorem PhiS_zero (c : Dev nD) (n : ℕ) (h : n ≤ cfg0.N) (hz : n = 0) : PhiS m c n h = iprop(∃ d, owns (c : Thread nD τ) scM0_0 fullShare d) := by
  subst hz; rfl

theorem PhiS_succ (c : Dev nD) (n : ℕ) (hn : n < cfg0.N) :
    PhiS m c (n + 1) hn = owns (c : Thread nD τ) scM0_0 fullShare (accAt m c n hn) := rfl

theorem PhiS_pos (c : Dev nD) (n : ℕ) (h : n ≤ cfg0.N) (hz : n ≠ 0) :
    PhiS m c n h = owns (c : Thread nD τ) scM0_0 fullShare (accAt m c (n - 1) (by omega)) := by
  cases n with
  | zero => exact absurd rfl hz
  | succ n => rfl

/-! ## The pipeline's proof data -/

/-- The proof data on core `c`: the arrays as the region finds them; after the body at point `t` each input's
    buffer at its block, the output's at `outAt`; the invariant the accumulator's contents; nothing owed; the array
    the two row windows share held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from rfl, after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from rfl, after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from rfl, after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from rfl, after0_3]
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from rfl, after0_4]

set_option maxHeartbeats 4800000 in
/-- The body at any point: the inputs' memrefs hold their blocks; the closed forms say which case the point is in;
    the invariant hands the body the accumulator at what the point before left (at anything at the first point) and
    takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4]
  have hN : t.val < 128 := lt_of_lt_of_eq t.isLt (show cfg0.N = 128 from N_0)
  by_cases h1 : t.val % 16 = 15
  · have h0 : ¬t.val % 16 = 0 := by omega
    have hz : t.val ≠ 0 := by omega
    rw [show (dats m 0 c).leavesExact 5 t = owns (c : Thread nD τ) (ms0_5 t) fullShare ((dats m 0 c).after 5 t) from by
      unfold Dat.leavesExact; rw [liveAt0_5 t ((hcond0_1 t).mpr h1)], after0_5]
    rw [outAt_C m c t h0 h1, accAt_C m c t h0 h1]
    unfold out0_C sout0_C; (try dsimp only)
    rw [PhiS_castSucc m c t, PhiS_pos m c _ _ hz]
    iintro ⟨HS0, Ho, ⟨%d0, H0⟩, ⟨%d1, H1⟩, ⟨%d2, H2⟩, ⟨%d3, H3⟩, ⟨%d4, H4⟩, ⟨%d5, H5⟩⟩
    iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0]
    · unfold owns; iexists _; isplitr
      swap; · iexact HS0
      ipureintro; exact View.read_writes_of_cover _ _ _ _ _ (scover0_C c _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_C c _ _ _ _ _ _ _ _ _ _ _ _ _ _ _ _ _ _ _ _ _ _ _)
  · rw [Dat.leavesExact_idle (dats m 0 c) 5 t (idleAt0_5 t (fun h => h1 ((hcond0_1 t).mp h))) (noFlush0_5 t (fun h => h1 ((hcond0_1 t).mp h)))]
    by_cases h0 : t.val % 16 = 0
    · rw [accAt_A m c t h0 h1]
      unfold sout0_A; (try dsimp only)
      by_cases hz : t.val = 0
      · rw [PhiS_castSucc m c t, PhiS_zero m c _ _ hz]
        iintro ⟨HS0, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0]
        · unfold owns; iexists _; isplitr
          swap; · iexact HS0
          ipureintro; exact View.read_writes_of_cover _ _ _ _ _ (scover0_A c _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0]
        · unfold owns; iexists _; isplitr
          swap; · iexact HS0
          ipureintro; exact View.read_writes_of_cover _ _ _ _ _ (scover0_A c _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5
    · have hz : t.val ≠ 0 := fun h => h0 (by rw [h])
      rw [accAt_B m c t h0 h1]
      unfold sout0_B; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0]
      · unfold owns; iexists _; isplitr
        swap; · iexact HS0
        ipureintro; exact View.read_writes_of_cover _ _ _ _ _ (scover0_B c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region (the accumulator at anything) is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [scopedRest0_owns, show (dats m 0 c).Φ 0 = PhiS m c 0 (Nat.zero_le _) from rfl, PhiS_zero m c 0 _ rfl]
  try exact Idealize.SL.BI.Entails.refl _

/-- After the last point the invariant gives the accumulator back, its contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [scopedRest0_owns, show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega)]
  iintro HS0
  iexists _; iexact HS0

end Cert.Kernel.Hand

end
-- ==== Proof.FrameK.Split.lean ====
/-
  How the buffers behind the windows' arrays are dealt to the windows when the region is entered.

  The six windows read five buffers: windows 0 and 1 both read the rounded first argument, each with its own block
  shape; windows 2, 3 and 4 read the column of squared row lengths, the row of them, and the rounded second
  argument; window 5 is the output. Held whole at the full share, the shared buffer is split along the share into
  its left half, which goes to window 0, and its right half, which goes to window 1; every other buffer goes to
  its one window at the full share (the output's array is held outright whatever the proof data's share says).
  The contents at entry are the region-entry contents throughout: an array before any write-back is the proof
  data's own array.
-/
import proofs.«175931_j86036784874092_2_alg».proof.Proof.FrameK.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One window's array at entry -/

/-- Window `w`'s array as the region finds it, for proof data whose array is the contents `V'` of the buffer behind
    it and that holds it at the share `q`: the whole buffer behind the array, at `q`, at `V'`. -/
theorem arr_entry_eq {c : Dev nD} (V' : (b : Ref sig .tc) → Buf (Elt F) ((c : Thread nD τ).loc b))
    (dat : Dat τ (Elt F) Unit ℕ (UR sig nD τ) ℕ cfg0 c) (hA : ∀ w, dat.A w = V' (Pipeline.arrRef spec0 w))
    (w : Fin cfg0.W) (q : PosShare TreeShare) (hs : dat.share w = q) :
    ((cfg0.win w).arr.view.loc (c : Thread nD τ) ↦[(cfg0.win w).arr.view.set]{dat.share w} dat.arrAt w 0 : sProp 𝕄)
      = (((c : Thread nD τ).loc (Pipeline.arrRef spec0 w)) ↦{q} V' (Pipeline.arrRef spec0 w)) := by
  rw [show dat.arrAt w 0 = dat.A w from rfl, hA, hs, (arr_whole0 w).set_eq_univ]

/-! ## The deal -/

/-- The deal, over any contents `V'` of the core's buffers at entry. -/
theorem hsplit_at {c : Dev nD} (V' : (b : Ref sig .tc) → Buf (Elt F) ((c : Thread nD τ).loc b))
    (dat : Dat τ (Elt F) Unit ℕ (UR sig nD τ) ℕ cfg0 c) (hA : ∀ w, dat.A w = V' (Pipeline.arrRef spec0 w))
    (hq0 : dat.q 0 = fullShare.left) (hq1 : dat.q 1 = fullShare.right)
    (hq : ∀ w : Fin cfg0.W, 2 ≤ w.val → dat.q w = fullShare) :
    (Pipeline.arrBufs spec0 c V' : sProp 𝕄) ⊢ dat.arrays (dat.arrAt · 0) := by
  -- the share each window holds its array at
  have hs0 : dat.share 0 = fullShare.left := (if_neg (by decide)).trans hq0
  have hs1 : dat.share 1 = fullShare.right := (if_neg (by decide)).trans hq1
  have hs2 : dat.share 2 = fullShare := (if_neg (by decide)).trans (hq 2 (by decide))
  have hs3 : dat.share 3 = fullShare := (if_neg (by decide)).trans (hq 3 (by decide))
  have hs4 : dat.share 4 = fullShare := (if_neg (by decide)).trans (hq 4 (by decide))
  have hs5 : dat.share 5 = fullShare := if_pos (by decide)
  -- the five buffers one by one, the six windows one by one
  unfold Pipeline.arrBufs Dat.arrays
  rw [bigSep_eq_bigSepL_of_eq [main_v0, main_v5, main_v6, main_v1, main_v7] (by decide) (by decide), bigSep_W0]
  -- the shared buffer along the share, then window by window
  refine ((BI.sep_mono_l (pointsTo_share (PosShare.mem_left_op_right fullShare)).1).trans BI.sep_assoc).trans ?_
  exact BI.sep_mono (Entails.of_eq (arr_entry_eq V' dat hA 0 _ hs0).symm)
    (BI.sep_mono (Entails.of_eq (arr_entry_eq V' dat hA 1 _ hs1).symm)
    (BI.sep_mono (Entails.of_eq (arr_entry_eq V' dat hA 2 _ hs2).symm)
    (BI.sep_mono (Entails.of_eq (arr_entry_eq V' dat hA 3 _ hs3).symm)
    (BI.sep_mono (Entails.of_eq (arr_entry_eq V' dat hA 4 _ hs4).symm)
      (Entails.of_eq (arr_entry_eq V' dat hA 5 _ hs5).symm)))))

/-- The buffers behind the windows' arrays, each whole at the full share at the region-entry contents, make the
    proof data's arrays at entry: the rounded first argument's left half to window 0 and right half to window 1,
    every other buffer whole to its one window. -/
theorem hsplit_of {c : Dev nD} (dat : Dat τ (Elt F) Unit ℕ (UR sig nD τ) ℕ cfg0 c)
    (hA : ∀ w, dat.A w = V m c (Pipeline.arrRef spec0 w))
    (hq0 : dat.q 0 = fullShare.left) (hq1 : dat.q 1 = fullShare.right)
    (hq : ∀ w : Fin cfg0.W, 2 ≤ w.val → dat.q w = fullShare) :
    (Pipeline.arrBufs spec0 c (V m c) : sProp 𝕄) ⊢ dat.arrays (dat.arrAt · 0) :=
  hsplit_at (V m c) dat hA hq0 hq1 hq

end Cert.Kernel.Hand

end
-- ==== Proof.FrameK.Run.lean ====
/-
  The run of the whole program and its frame: every weakly fair execution of @main terminates, nothing faults,
  each array of the pipeline ends at what the proof data computes, and the two argument arrays — which no window
  stages and no host operation writes — end as they were launched.
-/
import proofs.«175931_j86036784874092_2_alg».proof.Proof.FrameK.Frame
import proofs.«175931_j86036784874092_2_alg».proof.Proof.FrameK.Split

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares: the array the two row windows read is held half by each; every other window's array whole. -/
theorem q_rest (c : Dev nD) (w : Fin cfg0.W) (hw : 2 ≤ w.val) : (dats m 0 c).q w = fullShare := by
  match w, hw with
  | ⟨2, _⟩, _ => rfl
  | ⟨3, _⟩, _ => rfl
  | ⟨4, _⟩, _ => rfl
  | ⟨5, _⟩, _ => rfl

set_option backward.isDefEq.respectTransparency.types false in
/-- From any memory with zero counters every weakly fair execution of @main terminates, every array of the pipeline
    ends at what the library computes from the proof data, and every other unscoped buffer as the region found it. -/
theorem run_main : θ_run defs (onTc (τ := τ) (main (F := F))) (s₀ m ρ) (Pipeline.FramePost cfgs (dats m) 0 (V m)) :=
  Cert.Lib.SharedFrame.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m)
    (hmain := hmain m Variants.none)
    (hsplit := fun c => hsplit_of m (dats m 0 c) (A_eq m c) rfl rfl (q_rest m c))
    (hin := hin m) (hout := hout m)

/-- The frame claim's post at any `F`: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_arg0 (Pipeline.mem_restRefs_of main_arg0 (by decide) (by decide))).trans (V_main_arg0 m c),
       ((h c).2 main_arg1 (Pipeline.mem_restRefs_of main_arg1 (by decide) (by decide))).trans (V_main_arg1 m c)⟩)
    (run_main m ρ)

end Cert.Kernel.Hand

end
-- ==== Proof.FrameKI.Base.lean ====
/-
  What the three cases of the kernel body's run share: @main up to the region, the arrays as the region finds
  them, each window's block at a grid point, the two conditions of the body decided over the grid, and the
  staging memrefs.

  The grid has 8 × 16 points, point `t` at row-block `t / 16` and column-block `t % 16`. The body clears its
  accumulator when the column-block is 0, adds one column-block's contribution at every point, and copies the
  accumulator to the output block when the column-block is 15.
-/
import proofs.«175931_j86036784874092_2_alg».proof.Proof.Gen.KernelIdeal.Launch
import proofs.«175931_j86036784874092_2_alg».proof.Proof.Gen.KernelIdeal.Skeleton
import proofs.«175931_j86036784874092_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the eight host operations before it (the two roundings
    of the arguments, the squared row lengths and their two layouts). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place: unfetched, the block index has
    not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place: unfetched, the block index has
    not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place: unfetched, the block index has
    not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place: unfetched, the block index has
    not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place: unfetched, the block index has
    not moved since the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The accumulator is cleared: the column-block is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The accumulator is copied out: the column-block is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the output window is idle -/

/-- Where the accumulator is not copied out the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- Where it is copied out the window is live. -/
theorem liveAt0_5 : ∀ t : Fin cfg0.N, cond0_1 (grid0.coords t) → cfg0.idle 5 (grid0.coords t) = false := by decide +kernel

/-! ## The staging memrefs -/

/-- One staging buffer of the output window, through which its contents are stated. -/
abbrev VO0_5 : View sig .tc .vmem S512x1024 .f32 := (Memref.whole cc0_stg5_0 : Memref sig .tc .vmem S512x1024 .f32).view
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0_0 : Memref sig .tc .vmem S512x1024 .f32 := Memref.whole cc0_scratch0
abbrev VS0_0 : View sig .tc .vmem S512x1024 .f32 := scM0_0.view

/-- The core's scoped buffers that are no staging buffer are the accumulator alone, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Hand

end
-- ==== Proof.FrameKI.RunA.lean ====
/-
  The kernel body's run in case A: the column-block is 0 (the accumulator is cleared, then added to; nothing is copied out).
  On whole staging memrefs holding the five input blocks, the body runs and leaves the accumulator with the
  pieces its stores wrote; the output's buffer is handed back untouched. The pieces are found by running the body.
-/
import proofs.«175931_j86036784874092_2_alg».proof.Proof.FrameKI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i)
    (x0 : Vec F S512x4096 .bf16) (x1 : Vec F S256x4096 .bf16) (x2 : Vec F S512x1 .f32) (x3 : Vec F S1x256 .f32) (x4 : Vec F S4096x1024 .bf16) :
    { LS0 : List (View.Piece (Elt F) S512x1024 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__rbf_matmul_kernel i arg2 harg2 arg3 harg3 arg4 harg4 arg5 harg5 arg6 harg6 arg7 harg7 arg8 harg8) K } := by
  refine ⟨?_, fun xi5 E K => ?run⟩
  case run =>
    simp only [cc0__rbf_matmul_kernel_eq_skeleton]; unfold cc0__rbf_matmul_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.FrameKI.RunB.lean ====
/-
  The kernel body's run in case B: the column-block is neither 0 nor 15 (the accumulator is added to).
  On whole staging memrefs holding the five input blocks, the body runs and leaves the accumulator with the
  pieces its stores wrote; the output's buffer is handed back untouched. The pieces are found by running the body.
-/
import proofs.«175931_j86036784874092_2_alg».proof.Proof.FrameKI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) :
    { LS0 : List (View.Piece (Elt F) S512x1024 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__rbf_matmul_kernel i arg2 harg2 arg3 harg3 arg4 harg4 arg5 harg5 arg6 harg6 arg7 harg7 arg8 harg8) K } := by
  refine ⟨?_, fun xi5 E K => ?run⟩
  case run =>
    simp only [cc0__rbf_matmul_kernel_eq_skeleton]; unfold cc0__rbf_matmul_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.FrameKI.RunC.lean ====
/-
  The kernel body's run in case C: the column-block is 15 (the accumulator is added to, then copied to the output block).
  On whole staging memrefs holding the five input blocks, the body runs and leaves the accumulator with the
  pieces its stores wrote, and the output block with the piece its last store wrote. The pieces are found by running the body.
-/
import proofs.«175931_j86036784874092_2_alg».proof.Proof.FrameKI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) :
    Σ' (L5 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__rbf_matmul_kernel i arg2 harg2 arg3 harg3 arg4 harg4 arg5 harg5 arg6 harg6 arg7 harg7 arg8 harg8) K } := by
  refine ⟨?_, ?_, fun E K => ?run⟩
  case run =>
    simp only [cc0__rbf_matmul_kernel_eq_skeleton]; unfold cc0__rbf_matmul_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.FrameKI.Frame.lean ====
/-
  The frame of the program: what the accumulator and the output block hold after each grid point, the proof
  data of the pipeline, the body obligation at every point, the run, and the frame claim.

  After point `t` the accumulator holds: at a column-block 0 point, the zero splat plus that block's
  contribution; at any other point, what the point before left plus this block's contribution. The output
  block is stored once per row-block, at column-block 15, with the accumulator's final value; at the other
  points the output window is idle and is not written back.
-/
import proofs.«175931_j86036784874092_2_alg».proof.Proof.FrameKI.RunC
import proofs.«175931_j86036784874092_2_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A's stores (the clearing store, then the accumulating store) cover the accumulator. -/
theorem scover0_A (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i)
    (x0 : Vec F S512x4096 .bf16) (x1 : Vec F S256x4096 .bf16) (x2 : Vec F S512x1 .f32) (x3 : Vec F S1x256 .f32) (x4 : Vec F S4096x1024 .bf16) (y : S512x1024.Idx) :
    ∃ pc ∈ (kernelRun0_A c i arg2 harg2 arg3 harg3 arg4 harg4 arg5 harg5 arg6 harg6 arg7 harg7 arg8 harg8 hc0 hc1 x0 x1 x2 x3 x4).1, y ∈ pc.1.set :=
  View.cover_of_tiledL (kernelRun0_A c i arg2 harg2 arg3 harg3 arg4 harg4 arg5 harg5 arg6 harg6 arg7 harg7 arg8 harg8 hc0 hc1 x0 x1 x2 x3 x4).1 S512x1024.size (by sl_kernel_rfl) y

/-- What case A leaves in the accumulator. -/
def sout0_A (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i)
    (x0 : Vec F S512x4096 .bf16) (x1 : Vec F S256x4096 .bf16) (x2 : Vec F S512x1 .f32) (x3 : Vec F S1x256 .f32) (x4 : Vec F S4096x1024 .bf16) : Vec F S512x1024 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).1)

/-- Case B's store covers the accumulator. -/
theorem scover0_B (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) (y : S512x1024.Idx) :
    ∃ pc ∈ (kernelRun0_B c i arg2 harg2 arg3 harg3 arg4 harg4 arg5 harg5 arg6 harg6 arg7 harg7 arg8 harg8 hc0 hc1 x0 x1 x2 x3 x4 xs0).1, y ∈ pc.1.set :=
  View.cover_of_tiledL (kernelRun0_B c i arg2 harg2 arg3 harg3 arg4 harg4 arg5 harg5 arg6 harg6 arg7 harg7 arg8 harg8 hc0 hc1 x0 x1 x2 x3 x4 xs0).1 S512x1024.size (by sl_kernel_rfl) y

/-- What case B leaves in the accumulator. -/
def sout0_B (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) : Vec F S512x1024 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).1)

/-- Case C's store covers the accumulator, -/
theorem scover0_C (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) (y : S512x1024.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S512x1024.size (by sl_kernel_rfl) y

/-- and its copy covers the output block. -/
theorem cover0_C (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) (y : S512x1024.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S512x1024.size (by sl_kernel_rfl) y

/-- What case C leaves in the accumulator. -/
def sout0_C (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) : Vec F S512x1024 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

/-- What case C leaves in the output block's staging buffer. -/
def out0_C (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) : Vec F S512x1024 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-! ## The accumulator and the output block after each point -/

/-- What the accumulator holds after the body at position `n`: the case the closed forms select at `n`, run at
    the point's memrefs and input blocks, over what the point before left unless the point clears it. -/
def accAt (c : Dev nD) : (n : ℕ) → n < cfg0.N → Vec F S512x1024 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 16 = 0 then
      sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      if h1 : (n + 1) % 16 = 15 then
        sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (Nat.lt_of_succ_lt hn))
      else
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (Nat.lt_of_succ_lt hn))

/-- The accumulator before position `n ≠ 0` is what position `n - 1` left. -/
abbrev accPrev (c : Dev nD) (t : Fin cfg0.N) : Vec F S512x1024 .f32 :=
  accAt m c (t.val - 1) (Nat.lt_of_le_of_lt (Nat.sub_le _ _) t.isLt)

theorem accAt_A (c : Dev nD) (t : Fin cfg0.N) (h0 : t.val % 16 = 0) (h1 : ¬t.val % 16 = 15) :
    accAt m c t.val t.isLt = sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t) := by
  obtain ⟨n, hn⟩ := t
  cases n with
  | zero => exact rfl
  | succ n => exact (dif_pos h0).trans rfl

theorem accAt_B (c : Dev nD) (t : Fin cfg0.N) (h0 : ¬t.val % 16 = 0) (h1 : ¬t.val % 16 = 15) :
    accAt m c t.val t.isLt = sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (accPrev m c t) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg0.N) (h0 : ¬t.val % 16 = 0) (h1 : t.val % 16 = 15) :
    accAt m c t.val t.isLt = sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (accPrev m c t) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at point `t`: at a column-block 15 point the copy
    of the accumulator; at the other points the window is idle and not written back, and nothing consults this. -/
def outAt (c : Dev nD) (t : Fin cfg0.N) : Vec F S512x1024 .f32 :=
  if h1 : t.val % 16 = 15 then
    out0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => (fun h => by omega) ((hcond0_0 t).mp h)) ((hcond0_1 t).mpr h1) (iblk m c 0 t) (iblk m c 1 t) (iblk m c 2 t) (iblk m c 3 t) (iblk m c 4 t) (accPrev m c t)
  else accAt m c t.val t.isLt

theorem outAt_C (c : Dev nD) (t : Fin cfg0.N) (h0 : ¬t.val % 16 = 0) (h1 : t.val % 16 = 15) :
    outAt m c t = out0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (accPrev m c t) := by
  unfold outAt; exact (dif_pos h1).trans rfl

/-- The region invariant before position `n`: the accumulator at anything before the first point, afterwards at what
    the point before left in it. -/
def PhiS (c : Dev nD) : (n : ℕ) → n ≤ cfg0.N → sProp 𝕄
  | 0, _ => iprop(∃ d, owns (c : Thread nD τ) scM0_0 fullShare d)
  | n + 1, hn => owns (c : Thread nD τ) scM0_0 fullShare (accAt m c n hn)

theorem PhiS_zero (c : Dev nD) (n : ℕ) (h : n ≤ cfg0.N) (hz : n = 0) : PhiS m c n h = iprop(∃ d, owns (c : Thread nD τ) scM0_0 fullShare d) := by
  subst hz; rfl

theorem PhiS_succ (c : Dev nD) (n : ℕ) (hn : n < cfg0.N) :
    PhiS m c (n + 1) hn = owns (c : Thread nD τ) scM0_0 fullShare (accAt m c n hn) := rfl

theorem PhiS_pos (c : Dev nD) (n : ℕ) (h : n ≤ cfg0.N) (hz : n ≠ 0) :
    PhiS m c n h = owns (c : Thread nD τ) scM0_0 fullShare (accAt m c (n - 1) (by omega)) := by
  cases n with
  | zero => exact absurd rfl hz
  | succ n => rfl

/-! ## The pipeline's proof data -/

/-- The proof data on core `c`: the arrays as the region finds them; after the body at point `t` each input's
    buffer at its block, the output's at `outAt`; the invariant the accumulator's contents; nothing owed; the array
    the two row windows share held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from rfl, after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from rfl, after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from rfl, after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from rfl, after0_3]
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from rfl, after0_4]

set_option maxHeartbeats 4800000 in
/-- The body at any point: the inputs' memrefs hold their blocks; the closed forms say which case the point is in;
    the invariant hands the body the accumulator at what the point before left (at anything at the first point) and
    takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4]
  have hN : t.val < 128 := lt_of_lt_of_eq t.isLt (show cfg0.N = 128 from N_0)
  by_cases h1 : t.val % 16 = 15
  · have h0 : ¬t.val % 16 = 0 := by omega
    have hz : t.val ≠ 0 := by omega
    rw [show (dats m 0 c).leavesExact 5 t = owns (c : Thread nD τ) (ms0_5 t) fullShare ((dats m 0 c).after 5 t) from by
      unfold Dat.leavesExact; rw [liveAt0_5 t ((hcond0_1 t).mpr h1)], after0_5]
    rw [outAt_C m c t h0 h1, accAt_C m c t h0 h1]
    unfold out0_C sout0_C; (try dsimp only)
    rw [PhiS_castSucc m c t, PhiS_pos m c _ _ hz]
    iintro ⟨HS0, Ho, ⟨%d0, H0⟩, ⟨%d1, H1⟩, ⟨%d2, H2⟩, ⟨%d3, H3⟩, ⟨%d4, H4⟩, ⟨%d5, H5⟩⟩
    iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0]
    · unfold owns; iexists _; isplitr
      swap; · iexact HS0
      ipureintro; exact View.read_writes_of_cover _ _ _ _ _ (scover0_C c _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_C c _ _ _ _ _ _ _ _ _ _ _ _ _ _ _ _ _ _ _ _ _ _ _)
  · rw [Dat.leavesExact_idle (dats m 0 c) 5 t (idleAt0_5 t (fun h => h1 ((hcond0_1 t).mp h))) (noFlush0_5 t (fun h => h1 ((hcond0_1 t).mp h)))]
    by_cases h0 : t.val % 16 = 0
    · rw [accAt_A m c t h0 h1]
      unfold sout0_A; (try dsimp only)
      by_cases hz : t.val = 0
      · rw [PhiS_castSucc m c t, PhiS_zero m c _ _ hz]
        iintro ⟨HS0, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0]
        · unfold owns; iexists _; isplitr
          swap; · iexact HS0
          ipureintro; exact View.read_writes_of_cover _ _ _ _ _ (scover0_A c _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0]
        · unfold owns; iexists _; isplitr
          swap; · iexact HS0
          ipureintro; exact View.read_writes_of_cover _ _ _ _ _ (scover0_A c _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5
    · have hz : t.val ≠ 0 := fun h => h0 (by rw [h])
      rw [accAt_B m c t h0 h1]
      unfold sout0_B; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0]
      · unfold owns; iexists _; isplitr
        swap; · iexact HS0
        ipureintro; exact View.read_writes_of_cover _ _ _ _ _ (scover0_B c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region (the accumulator at anything) is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [scopedRest0_owns, show (dats m 0 c).Φ 0 = PhiS m c 0 (Nat.zero_le _) from rfl, PhiS_zero m c 0 _ rfl]
  try exact Idealize.SL.BI.Entails.refl _

/-- After the last point the invariant gives the accumulator back, its contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [scopedRest0_owns, show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega)]
  iintro HS0
  iexists _; iexact HS0

end Cert.KernelIdeal.Hand

end
-- ==== Proof.FrameKI.Split.lean ====
/-
  How the buffers behind the windows' arrays are dealt to the windows when the region is entered.

  The six windows read five buffers: windows 0 and 1 both read the rounded first argument, each with its own block
  shape; windows 2, 3 and 4 read the column of squared row lengths, the row of them, and the rounded second
  argument; window 5 is the output. Held whole at the full share, the shared buffer is split along the share into
  its left half, which goes to window 0, and its right half, which goes to window 1; every other buffer goes to
  its one window at the full share (the output's array is held outright whatever the proof data's share says).
  The contents at entry are the region-entry contents throughout: an array before any write-back is the proof
  data's own array.
-/
import proofs.«175931_j86036784874092_2_alg».proof.Proof.FrameKI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One window's array at entry -/

/-- Window `w`'s array as the region finds it, for proof data whose array is the contents `V'` of the buffer behind
    it and that holds it at the share `q`: the whole buffer behind the array, at `q`, at `V'`. -/
theorem arr_entry_eq {c : Dev nD} (V' : (b : Ref sig .tc) → Buf (Elt F) ((c : Thread nD τ).loc b))
    (dat : Dat τ (Elt F) Unit ℕ (UR sig nD τ) ℕ cfg0 c) (hA : ∀ w, dat.A w = V' (Pipeline.arrRef spec0 w))
    (w : Fin cfg0.W) (q : PosShare TreeShare) (hs : dat.share w = q) :
    ((cfg0.win w).arr.view.loc (c : Thread nD τ) ↦[(cfg0.win w).arr.view.set]{dat.share w} dat.arrAt w 0 : sProp 𝕄)
      = (((c : Thread nD τ).loc (Pipeline.arrRef spec0 w)) ↦{q} V' (Pipeline.arrRef spec0 w)) := by
  rw [show dat.arrAt w 0 = dat.A w from rfl, hA, hs, (arr_whole0 w).set_eq_univ]

/-! ## The deal -/

/-- The deal, over any contents `V'` of the core's buffers at entry. -/
theorem hsplit_at {c : Dev nD} (V' : (b : Ref sig .tc) → Buf (Elt F) ((c : Thread nD τ).loc b))
    (dat : Dat τ (Elt F) Unit ℕ (UR sig nD τ) ℕ cfg0 c) (hA : ∀ w, dat.A w = V' (Pipeline.arrRef spec0 w))
    (hq0 : dat.q 0 = fullShare.left) (hq1 : dat.q 1 = fullShare.right)
    (hq : ∀ w : Fin cfg0.W, 2 ≤ w.val → dat.q w = fullShare) :
    (Pipeline.arrBufs spec0 c V' : sProp 𝕄) ⊢ dat.arrays (dat.arrAt · 0) := by
  -- the share each window holds its array at
  have hs0 : dat.share 0 = fullShare.left := (if_neg (by decide)).trans hq0
  have hs1 : dat.share 1 = fullShare.right := (if_neg (by decide)).trans hq1
  have hs2 : dat.share 2 = fullShare := (if_neg (by decide)).trans (hq 2 (by decide))
  have hs3 : dat.share 3 = fullShare := (if_neg (by decide)).trans (hq 3 (by decide))
  have hs4 : dat.share 4 = fullShare := (if_neg (by decide)).trans (hq 4 (by decide))
  have hs5 : dat.share 5 = fullShare := if_pos (by decide)
  -- the five buffers one by one, the six windows one by one
  unfold Pipeline.arrBufs Dat.arrays
  rw [bigSep_eq_bigSepL_of_eq [main_v0, main_v5, main_v6, main_v1, main_v7] (by decide) (by decide), bigSep_W0]
  -- the shared buffer along the share, then window by window
  refine ((BI.sep_mono_l (pointsTo_share (PosShare.mem_left_op_right fullShare)).1).trans BI.sep_assoc).trans ?_
  exact BI.sep_mono (Entails.of_eq (arr_entry_eq V' dat hA 0 _ hs0).symm)
    (BI.sep_mono (Entails.of_eq (arr_entry_eq V' dat hA 1 _ hs1).symm)
    (BI.sep_mono (Entails.of_eq (arr_entry_eq V' dat hA 2 _ hs2).symm)
    (BI.sep_mono (Entails.of_eq (arr_entry_eq V' dat hA 3 _ hs3).symm)
    (BI.sep_mono (Entails.of_eq (arr_entry_eq V' dat hA 4 _ hs4).symm)
      (Entails.of_eq (arr_entry_eq V' dat hA 5 _ hs5).symm)))))

/-- The buffers behind the windows' arrays, each whole at the full share at the region-entry contents, make the
    proof data's arrays at entry: the rounded first argument's left half to window 0 and right half to window 1,
    every other buffer whole to its one window. -/
theorem hsplit_of {c : Dev nD} (dat : Dat τ (Elt F) Unit ℕ (UR sig nD τ) ℕ cfg0 c)
    (hA : ∀ w, dat.A w = V m c (Pipeline.arrRef spec0 w))
    (hq0 : dat.q 0 = fullShare.left) (hq1 : dat.q 1 = fullShare.right)
    (hq : ∀ w : Fin cfg0.W, 2 ≤ w.val → dat.q w = fullShare) :
    (Pipeline.arrBufs spec0 c (V m c) : sProp 𝕄) ⊢ dat.arrays (dat.arrAt · 0) :=
  hsplit_at (V m c) dat hA hq0 hq1 hq

end Cert.KernelIdeal.Hand

end
-- ==== Proof.FrameKI.Run.lean ====
/-
  The run of the whole program and its frame: every weakly fair execution of @main terminates, nothing faults,
  each array of the pipeline ends at what the proof data computes, and the two argument arrays — which no window
  stages and no host operation writes — end as they were launched.
-/
import proofs.«175931_j86036784874092_2_alg».proof.Proof.FrameKI.Frame
import proofs.«175931_j86036784874092_2_alg».proof.Proof.FrameKI.Split

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares: the array the two row windows read is held half by each; every other window's array whole. -/
theorem q_rest (c : Dev nD) (w : Fin cfg0.W) (hw : 2 ≤ w.val) : (dats m 0 c).q w = fullShare := by
  match w, hw with
  | ⟨2, _⟩, _ => rfl
  | ⟨3, _⟩, _ => rfl
  | ⟨4, _⟩, _ => rfl
  | ⟨5, _⟩, _ => rfl

set_option backward.isDefEq.respectTransparency.types false in
/-- From any memory with zero counters every weakly fair execution of @main terminates, every array of the pipeline
    ends at what the library computes from the proof data, and every other unscoped buffer as the region found it. -/
theorem run_main : θ_run defs (onTc (τ := τ) (main (F := F))) (s₀ m ρ) (Pipeline.FramePost cfgs (dats m) 0 (V m)) :=
  Cert.Lib.SharedFrame.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m)
    (hmain := hmain m Variants.none)
    (hsplit := fun c => hsplit_of m (dats m 0 c) (A_eq m c) rfl rfl (q_rest m c))
    (hin := hin m) (hout := hout m)

/-- The frame claim's post at any `F`: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_arg0 (Pipeline.mem_restRefs_of main_arg0 (by decide) (by decide))).trans (V_main_arg0 m c),
       ((h c).2 main_arg1 (Pipeline.mem_restRefs_of main_arg1 (by decide) (by decide))).trans (V_main_arg1 m c)⟩)
    (run_main m ρ)

end Cert.KernelIdeal.Hand

end
-- ==== Proof.FrameKI.Pieces.lean ====
/-
  What each case leaves, as the body's arithmetic: the accumulator after a point is the step function — the
  contribution of the point's column-block added to a starting value — applied to the point's input blocks, the
  rows of the weight matrix the point selects, and the starting value: the zero splat where the point clears the
  accumulator, what the point before left elsewhere. At a column-block 15 point the output block is that same value.
-/
import proofs.«175931_j86036784874092_2_alg».proof.Proof.FrameKI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeros2 : (![0, 0] : Fin 2 → Nat) = fun _ => 0 := by
  funext a; fin_cases a <;> rfl

/-- Case B: the step over what the point before left. -/
theorem sout0_B_eq (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) :
    sout0_B c i arg2 harg2 arg3 harg3 arg4 harg4 arg5 harg5 arg6 harg6 arg7 harg7 arg8 harg8 hc0 hc1 x0 x1 x2 x3 x4 xs0 = k0_pay2 x0 x1 x2 x3 (View.ld x4 (Rect.unit (s := S4096x1024) (k0_off1 i) S256x1024.size (k0_off1_inb i))) xs0 := by
  unfold sout0_B
  rw [View.read_writes_eq_canon _ _ _ (scover0_B c i arg2 harg2 arg3 harg3 arg4 harg4 arg5 harg5 arg6 harg6 arg7 harg7 arg8 harg8 hc0 hc1 x0 x1 x2 x3 x4 xs0)]
  unfold kernelRun0_B; dsimp only
  sl_unfold_words
  rw [View.canon_unit_zero zeros2]
  simp only [View.readAt_eq_ld, Memref.IsWhole.read_unread, View.ld_unit_zero (S := S512x4096) zeros2,
    View.ld_unit_zero (S := S256x4096) zeros2, View.ld_unit_zero (S := S512x1) zeros2, View.ld_unit_zero (S := S1x256) zeros2,
    View.ld_unit_zero (S := S512x1024) zeros2]

/-- Case C, the accumulator: the same step. -/
theorem sout0_C_eq (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) :
    sout0_C c i arg2 harg2 arg3 harg3 arg4 harg4 arg5 harg5 arg6 harg6 arg7 harg7 arg8 harg8 hc0 hc1 x0 x1 x2 x3 x4 xs0 = k0_pay2 x0 x1 x2 x3 (View.ld x4 (Rect.unit (s := S4096x1024) (k0_off1 i) S256x1024.size (k0_off1_inb i))) xs0 := by
  unfold sout0_C
  rw [View.read_writes_eq_canon _ _ _ (scover0_C c i arg2 harg2 arg3 harg3 arg4 harg4 arg5 harg5 arg6 harg6 arg7 harg7 arg8 harg8 hc0 hc1 x0 x1 x2 x3 x4 xs0)]
  unfold kernelRun0_C; dsimp only
  sl_unfold_words
  rw [View.canon_unit_zero zeros2]
  simp only [View.readAt_eq_ld, Memref.IsWhole.read_unread, View.ld_unit_zero (S := S512x4096) zeros2,
    View.ld_unit_zero (S := S256x4096) zeros2, View.ld_unit_zero (S := S512x1) zeros2, View.ld_unit_zero (S := S1x256) zeros2,
    View.ld_unit_zero (S := S512x1024) zeros2]

/-- Case C, the output block: the accumulator's new value, copied. -/
theorem out0_C_eq (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x4096 .bf16) (x1 : Vec F S256x4096 .bf16) (x2 : Vec F S512x1 .f32) (x3 : Vec F S1x256 .f32) (x4 : Vec F S4096x1024 .bf16) (xs0 : Vec F S512x1024 .f32) :
    out0_C c i arg2 harg2 arg3 harg3 arg4 harg4 arg5 harg5 arg6 harg6 arg7 harg7 arg8 harg8 hc0 hc1 x0 x1 x2 x3 x4 xs0 = k0_pay2 x0 x1 x2 x3 (View.ld x4 (Rect.unit (s := S4096x1024) (k0_off1 i) S256x1024.size (k0_off1_inb i))) xs0 := by
  unfold out0_C
  rw [View.read_writes_eq_canon _ _ _ (cover0_C c i arg2 harg2 arg3 harg3 arg4 harg4 arg5 harg5 arg6 harg6 arg7 harg7 arg8 harg8 hc0 hc1 x0 x1 x2 x3 x4 xs0)]
  unfold kernelRun0_C; dsimp only
  sl_unfold_words
  rw [View.canon_unit_zero zeros2, View.readCov_unit_zero _ zeros2]
  simp only [View.readAt_eq_ld, Memref.IsWhole.read_unread, View.ld_unit_zero (S := S512x4096) zeros2,
    View.ld_unit_zero (S := S256x4096) zeros2, View.ld_unit_zero (S := S512x1) zeros2, View.ld_unit_zero (S := S1x256) zeros2,
    View.ld_unit_zero (S := S512x1024) zeros2]

/-- Case A: the step over the zero splat. -/
theorem sout0_A_eq (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S512x1 .f32) (harg4 : arg4.IsWhole) (arg5 : Memref sig .tc .vmem S1x256 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i)
    (x0 : Vec F S512x4096 .bf16) (x1 : Vec F S256x4096 .bf16) (x2 : Vec F S512x1 .f32) (x3 : Vec F S1x256 .f32) (x4 : Vec F S4096x1024 .bf16) :
    sout0_A c i arg2 harg2 arg3 harg3 arg4 harg4 arg5 harg5 arg6 harg6 arg7 harg7 arg8 harg8 hc0 hc1 x0 x1 x2 x3 x4 = k0_pay2 x0 x1 x2 x3 (View.ld x4 (Rect.unit (s := S4096x1024) (k0_off1 i) S256x1024.size (k0_off1_inb i))) (k0_pay1 (F := F)) := by
  unfold sout0_A
  rw [View.read_writes_eq_canon _ _ _ (scover0_A c i arg2 harg2 arg3 harg3 arg4 harg4 arg5 harg5 arg6 harg6 arg7 harg7 arg8 harg8 hc0 hc1 x0 x1 x2 x3 x4)]
  unfold kernelRun0_A; dsimp only
  sl_unfold_words
  rw [View.canon_cons_unit_zero zeros2, View.readCov_unit_zero _ zeros2]
  simp only [View.readAt_eq_ld, Memref.IsWhole.read_unread, View.ld_unit_zero (S := S512x4096) zeros2,
    View.ld_unit_zero (S := S256x4096) zeros2, View.ld_unit_zero (S := S512x1) zeros2, View.ld_unit_zero (S := S1x256) zeros2,
    View.ld_unit_zero (S := S512x1024) zeros2]

end Cert.KernelIdeal.Hand

end
-- ==== Proof.Spec.lean ====
/-
  The function both programs compute, on the extended reals.

  For a matrix `x` of 4096 rows and 4096 columns and a matrix `w` of 4096 rows and 1024 columns, write
  `s i = 0 + ∑ d, x i d · x i d` for the squared length of row `i`, `g i j = ∑ d, x i d · x j d` for the inner
  product of rows `i` and `j`, and `κ i j = exp (−½ · ((s i + s j) − 2 · g i j))` for the Gaussian kernel of the
  two rows. The result at `(i, o)` is `∑ j, κ i j · w j o`: the kernel matrix times `w`.

  The three constants are kept as the words the programs print (`0`, `2`, `−½` in binary32); only the zero word is
  ever evaluated.
-/
import Idealize.ShloMosaic.PureOps.Ideal
import Idealize.ShloMosaic.Lib.ValueIdx

noncomputable section

namespace Cert.Rbf

open Idealize.ShloMosaic Idealize.ShloMosaic.ValueIdx

/-- The shape of `x`: 4096 × 4096. -/
abbrev SX : Shape := ⟨2, ![4096, 4096]⟩
/-- The shape of `w` and of the result: 4096 × 1024. -/
abbrev SW : Shape := ⟨2, ![4096, 1024]⟩

/-- The word of `0.0`. -/
def c0 : EReal := Ideal.ofBits .f32 0x00000000#32
/-- The word of `2.0`. -/
def c2 : EReal := Ideal.ofBits .f32 0x40000000#32
/-- The word of `−0.5`. -/
def ch : EReal := Ideal.ofBits .f32 0xBF000000#32

/-- The squared length of row `i`, summed from the zero word. -/
def sqn (x : SX.Idx → EReal) (i : Fin 4096) : EReal := c0 + ∑ d : Fin 4096, x (ix2 i d) * x (ix2 i d)

/-- The inner product of rows `i` and `j`. -/
def gram (x : SX.Idx → EReal) (i j : Fin 4096) : EReal := ∑ d : Fin 4096, x (ix2 i d) * x (ix2 j d)

/-- The Gaussian kernel of rows `i` and `j`, from two squared lengths and an inner product. -/
def kernOf (si sj g : EReal) : EReal := Ideal.exp (ch * ((si + sj) - c2 * g))

/-- The Gaussian kernel of rows `i` and `j` of `x`. -/
def kern (x : SX.Idx → EReal) (i j : Fin 4096) : EReal := kernOf (sqn x i) (sqn x j) (gram x i j)

/-- The result at row `i`, column `o`. -/
def Gat (x : SX.Idx → EReal) (w : SW.Idx → EReal) (i : Fin 4096) (o : Fin 1024) : EReal :=
  ∑ j : Fin 4096, kern x i j * w (ix2 j o)

/-- The result as an array. -/
def G (x : SX.Idx → EReal) (w : SW.Idx → EReal) : SW.Idx → EReal :=
  fun a => Gat x w ⟨(a 0).val, (a 0).isLt⟩ ⟨(a 1).val, (a 1).isLt⟩

theorem G_ix2 (x : SX.Idx → EReal) (w : SW.Idx → EReal) (i : Fin 4096) (o : Fin 1024) :
    G x w (ix2 i o) = Gat x w i o := rfl

end Cert.Rbf

end
-- ==== Proof.Payload.lean ====
/-
  The kernel body's arithmetic, read at one entry.

  One grid step holds a tile of 512 rows `x_i` (`v3`), a tile of 256 rows `x_j` (`v5`), the squared lengths of the
  former as a column (`v8`) and of the latter as a row (`v10`), 256 rows of `w` (`v24`), and the running total
  (`v28`). The step adds to the running total at `(p, o)` the sum over the 256 rows `jj` of

      exp (−½ · ((s_p + s_jj) − 2 · ∑ d, x_p d · x_jj d)) · w jj o ,

  that is `kernOf` of the two squared lengths and the inner product, times the entry of `w`. Before the first step
  the running total is the zero word everywhere.

  The two products are finite sums over their one contracted axis: the first contracts the second axis of both
  operands (rows against rows), the second is rows against columns. Every format change is the identity on the
  extended reals, a cast to the same shape is the identity, and the two broadcasts read the column at its row and
  the row at its column.
-/
import proofs.«175931_j86036784874092_2_alg».proof.Proof.Gen.KernelIdeal.Skeleton
import proofs.«175931_j86036784874092_2_alg».proof.Proof.Gen.KernelIdeal
import proofs.«175931_j86036784874092_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Rbf.Payload

open Idealize.ShloMosaic Idealize.ShloMosaic.ValueIdx Cert.KernelIdeal Cert.KernelIdeal.Gen

/-! ## One column broadcast over many -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of rows against rows, `[512, 4096] × [256, 4096] → [512, 256]` -/

/-- The left operand's row is the result's row. -/
theorem gram_lhs0 (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl
/-- The left operand's column is the contraction position. -/
theorem gram_lhs1 (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
/-- The right operand's row is the result's column. -/
theorem gram_rhs0 (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl
/-- The right operand's column is the contraction position. -/
theorem gram_rhs1 (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- Into the zero splat, the product of rows against rows at `(p, c)` is the inner product of row `p` of the left
operand and row `c` of the right one. -/
theorem gram_matmul_apply (A : FVec Ideal S512x4096 .bf16) (B : FVec Ideal S256x4096 .bf16) (p : Fin 512) (c : Fin 256) :
    matmul dot_S512x4096_S256x4096_S512x256_1_1_0_0_n_n none A B (constant (F := Ideal) S512x256 .f32 0x00000000#32) (ix2 p c)
      = ∑ d : Fin 4096, A (ix2 p d) * B (ix2 c d) := by
  simp only [matmul]
  rw [Ideal.matmul_constant_zero_apply,
    ← Equiv.sum_comp (ValueIdx.contrEquiv1 dot_S512x4096_S256x4096_S512x256_1_1_0_0_n_n 4096 rfl rfl).symm]
  refine Finset.sum_congr rfl fun k _ => ?_
  have hk := ValueIdx.contrEquiv1_symm_val dot_S512x4096_S256x4096_S512x256_1_1_0_0_n_n 4096 rfl rfl k
  have el : dot_S512x4096_S256x4096_S512x256_1_1_0_0_n_n.lhsIdx (ix2 p c)
      ((ValueIdx.contrEquiv1 dot_S512x4096_S256x4096_S512x256_1_1_0_0_n_n 4096 rfl rfl).symm k) = ix2 p k :=
    funext fun a => Fin.ext (by
      match a with
      | ⟨0, _⟩ => exact gram_lhs0 _ _
      | ⟨1, _⟩ => exact (gram_lhs1 _ _).trans hk)
  have er : dot_S512x4096_S256x4096_S512x256_1_1_0_0_n_n.rhsIdx (ix2 p c)
      ((ValueIdx.contrEquiv1 dot_S512x4096_S256x4096_S512x256_1_1_0_0_n_n 4096 rfl rfl).symm k) = ix2 c k :=
    funext fun a => Fin.ext (by
      match a with
      | ⟨0, _⟩ => exact gram_rhs0 _ _
      | ⟨1, _⟩ => exact (gram_rhs1 _ _).trans hk)
  rw [el, er]

/-! ## The product of rows against columns, `[512, 256] × [256, 1024] → [512, 1024]` -/

/-- The left operand's row is the result's row. -/
theorem out_lhs0 (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide),
    dif_pos (show (0 : Fin S512x256.rank) ∈ dot_S512x256_S256x1024_S512x1024_1_0_0_1_n_n.lhsNonContracting by decide)]
  rfl
/-- The left operand's column is the contraction position. -/
theorem out_lhs1 (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q
/-- The right operand's row is the contraction position. -/
theorem out_rhs0 (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q
/-- The right operand's column is the result's column. -/
theorem out_rhs1 (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide),
    dif_pos (show (1 : Fin S256x1024.rank) ∈ dot_S512x256_S256x1024_S512x1024_1_0_0_1_n_n.rhsNonContracting by decide)]
  rfl

/-- Into the zero splat, the product of rows against columns at `(p, o)` is the sum over the 256 contracted
positions of the left operand's row `p` times the right operand's column `o`. -/
theorem out_matmul_apply (K : FVec Ideal S512x256 .bf16) (W : FVec Ideal S256x1024 .bf16) (p : Fin 512) (o : Fin 1024) :
    matmul dot_S512x256_S256x1024_S512x1024_1_0_0_1_n_n none K W (constant (F := Ideal) S512x1024 .f32 0x00000000#32) (ix2 p o)
      = ∑ jj : Fin 256, K (ix2 p jj) * W (ix2 jj o) := by
  simp only [matmul]
  rw [Ideal.matmul_constant_zero_apply,
    ← Equiv.sum_comp (ValueIdx.contrEquiv1 dot_S512x256_S256x1024_S512x1024_1_0_0_1_n_n 256 rfl rfl).symm]
  refine Finset.sum_congr rfl fun k _ => ?_
  have hk := ValueIdx.contrEquiv1_symm_val dot_S512x256_S256x1024_S512x1024_1_0_0_1_n_n 256 rfl rfl k
  have el : dot_S512x256_S256x1024_S512x1024_1_0_0_1_n_n.lhsIdx (ix2 p o)
      ((ValueIdx.contrEquiv1 dot_S512x256_S256x1024_S512x1024_1_0_0_1_n_n 256 rfl rfl).symm k) = ix2 p k :=
    funext fun a => Fin.ext (by
      match a with
      | ⟨0, _⟩ => exact out_lhs0 _ _
      | ⟨1, _⟩ => exact (out_lhs1 _ _).trans hk)
  have er : dot_S512x256_S256x1024_S512x1024_1_0_0_1_n_n.rhsIdx (ix2 p o)
      ((ValueIdx.contrEquiv1 dot_S512x256_S256x1024_S512x1024_1_0_0_1_n_n 256 rfl rfl).symm k) = ix2 k o :=
    funext fun a => Fin.ext (by
      match a with
      | ⟨0, _⟩ => exact (out_rhs0 _ _).trans hk
      | ⟨1, _⟩ => exact out_rhs1 _ _)
  rw [el, er]

/-! ## The two payloads at an entry -/

/-- The word of `0.0` is the extended real `0`. -/
theorem c0_eq : Cert.Rbf.c0 = 0 := Ideal.ofBits_zero_f32

/-- Before the first step the running total is the zero word at every entry. -/
theorem pay1_apply (p : Fin 512) (o : Fin 1024) : Cert.KernelIdeal.Gen.k0_pay1 (F := Ideal) (ix2 p o) = Cert.Rbf.c0 := by
  unfold Cert.KernelIdeal.Gen.k0_pay1
  simp only [shapeCast_self]
  rfl

/-- One step adds to the running total at `(p, o)` the sum over the tile's 256 rows `jj` of the Gaussian kernel of
row `p` and row `jj` (from their squared lengths and their inner product) times `w jj o`. -/
theorem pay2_apply (v3 : Vec Ideal S512x4096 .bf16) (v5 : Vec Ideal S256x4096 .bf16) (v8 : Vec Ideal S512x1 .f32)
    (v10 : Vec Ideal S1x256 .f32) (v24 : Vec Ideal S256x1024 .bf16) (v28 : Vec Ideal S512x1024 .f32)
    (p : Fin 512) (o : Fin 1024) :
    Cert.KernelIdeal.Gen.k0_pay2 (F := Ideal) v3 v5 v8 v10 v24 v28 (ix2 p o)
      = v28 (ix2 p o) + ∑ jj : Fin 256, Cert.Rbf.kernOf (v8 (ix2 p 0)) (v10 (ix2 0 jj))
          (∑ d : Fin 4096, v3 (ix2 p d) * v5 (ix2 jj d)) * v24 (ix2 jj o) := by
  unfold Cert.KernelIdeal.Gen.k0_pay2
  simp only [shapeCast_self]
  rw [addf_apply]
  refine congrArg (v28 (ix2 p o) + ·) ?_
  refine (out_matmul_apply _ _ p o).trans ?_
  refine Finset.sum_congr rfl fun jj _ => ?_
  refine congrArg (· * v24 (ix2 jj o)) ?_
  rw [truncf_apply]
  show Ideal.exp (Cert.Rbf.ch * ((broadcastTo S512x256 v8 broadcasts_S512x1_S512x256 (ix2 p jj)
      + broadcastTo S512x256 v10 broadcasts_S1x256_S512x256 (ix2 p jj))
      - Cert.Rbf.c2 * matmul dot_S512x4096_S256x4096_S512x256_1_1_0_0_n_n none v3 v5
          (constant (F := Ideal) S512x256 .f32 0x00000000#32) (ix2 p jj))) = _
  rw [broadcastTo_a1_ab_apply, broadcastTo_1b_ab_apply, gram_matmul_apply]
  rfl

end Cert.Rbf.Payload

end
-- ==== Proof.HostSide.lean ====
/-
  What the region finds in the arrays its windows read, at the extended reals.

  Before the region @main rounds the two arguments to the narrow format (the identity on the extended reals),
  widens the first again, squares it entry by entry, sums each row of the squares from the zero word, and lays the
  vector of row sums out as a column and as a row. So, with `x` the first argument and `w` the second: the rounded
  first argument at (i, d) is `x i d`; the rounded second at (j, o) is `w j o`; the column at (i, 0) and the row at
  (0, j) are the squared lengths `s i = 0 + ∑ d, x i d · x i d` and `s j`.
-/
import proofs.«175931_j86036784874092_2_alg».proof.Proof.FrameKI.Base
import proofs.«175931_j86036784874092_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.Rbf Idealize.ShloMosaic.ValueIdx

variable (m : (ℓ : Loc nD τ sig) → Buf (Elt Ideal) ℓ)

/-! ## Two layouts and a row sum, read at coordinates -/

/-- A vector of `a` entries laid out as the column `[a, 1]` reads, at `(i, u)`, the vector at `i`, whatever the unit
    coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The host's sum along the rows of a 4096 × 4096 array from an initial scalar, at row `i`: the scalar plus the sum
    of the row's entries. -/
theorem reduce_rows_at (y : FVec Ideal S4096x4096 .f32) (v : FVec Ideal S_ .f32) (i : Fin 4096) :
    Host.reduceAdd (F := Ideal) y v reducesTo_S4096x4096_S4096_d1 h_S_ (ix1 i)
      = v (Shape.Idx.first h_S_) + ∑ k : Fin 4096, y (ix2 i k) := by
  simp only [Host.reduceAdd, Ideal.hostReduceAdd_def]
  rw [Ideal.hostReduceAdd_single reducesTo_S4096x4096_S4096_d1 (by decide)]
  refine congrArg (_ + ·) (Finset.sum_congr rfl fun k _ => ?_)
  exact congrArg y (funext fun a => Fin.ext (by match a with | ⟨0, _⟩ => rfl | ⟨1, _⟩ => rfl))

/-- The vector of squared row lengths as the host computes it from the first argument: round, widen, square, sum each
    row from the zero word. -/
def sqv (X : FVec Ideal S4096x4096 .f32) : FVec Ideal S4096 .f32 :=
  Host.reduceAdd (F := Ideal)
    (mulf (extf .f32 (truncf .bf16 X bitsLt_bf16_f32) bitsLt_bf16_f32) (extf .f32 (truncf .bf16 X bitsLt_bf16_f32) bitsLt_bf16_f32))
    (constant (F := Ideal) S_ .f32 0x00000000#32) reducesTo_S4096x4096_S4096_d1 h_S_

/-- Entry `i` of that vector is `s i = 0 + ∑ d, x i d · x i d`: the two format changes are the identity. -/
theorem sqv_at (X : FVec Ideal S4096x4096 .f32) (i : Fin 4096) : sqv X (ix1 i) = sqn X i := by
  unfold sqv
  rw [reduce_rows_at]
  rfl

/-! ## The arrays as the region finds them -/

/-- The rounded first argument is the first argument. -/
theorem V_v0_eq (c : Dev nD) :
    @Eq (FVec Ideal S4096x4096 .bf16) (V m c main_v0)
      (truncf (F := Ideal) (s := S4096x4096) (φ := .f32) .bf16 (m ((c : Thread nD τ).loc main_arg0)) bitsLt_bf16_f32) := by
  dsimp only [V, hostOps0]; after_results

/-- The rounded second argument is the second argument. -/
theorem V_v1_eq (c : Dev nD) :
    @Eq (FVec Ideal S4096x1024 .bf16) (V m c main_v1)
      (truncf (F := Ideal) (s := S4096x1024) (φ := .f32) .bf16 (m ((c : Thread nD τ).loc main_arg1)) bitsLt_bf16_f32) := by
  dsimp only [V, hostOps0]; after_results

/-- The column of squared row lengths. -/
theorem V_v5_eq (c : Dev nD) :
    @Eq (FVec Ideal S4096x1 .f32) (V m c main_v5)
      (shapeCast S4096x1 (sqv (m ((c : Thread nD τ).loc main_arg0))) shapeCasts_S4096_S4096x1) := by
  dsimp only [V, hostOps0]; after_results; rfl

/-- The row of squared row lengths. -/
theorem V_v6_eq (c : Dev nD) :
    @Eq (FVec Ideal S1x4096 .f32) (V m c main_v6)
      (shapeCast S1x4096 (sqv (m ((c : Thread nD τ).loc main_arg0))) shapeCasts_S4096_S1x4096) := by
  dsimp only [V, hostOps0]; after_results; rfl

/-! ## … read at coordinates -/

/-- The rounded first argument at `(i, d)` is `x i d`. -/
theorem V_v0_at (c : Dev nD) (i d : Fin 4096) :
    V m c main_v0 (ix2 i d) = m ((c : Thread nD τ).loc main_arg0) (ix2 i d) :=
  congrFun (V_v0_eq m c) (ix2 i d)

/-- The rounded second argument at `(j, o)` is `w j o`. -/
theorem V_v1_at (c : Dev nD) (j : Fin 4096) (o : Fin 1024) :
    V m c main_v1 (ix2 j o) = m ((c : Thread nD τ).loc main_arg1) (ix2 j o) :=
  congrFun (V_v1_eq m c) (ix2 j o)

/-- The column at `(i, 0)` is the squared length of row `i`. -/
theorem V_v5_at (c : Dev nD) (i : Fin 4096) :
    V m c main_v5 (ix2 i (0 : Fin 1)) = sqn (m ((c : Thread nD τ).loc main_arg0)) i :=
  (congrFun (V_v5_eq m c) (ix2 i (0 : Fin 1))).trans
    ((shapeCast_a_a1_apply _ shapeCasts_S4096_S4096x1 i 0).trans (sqv_at _ i))

/-- The row at `(0, j)` is the squared length of row `j`. -/
theorem V_v6_at (c : Dev nD) (j : Fin 4096) :
    V m c main_v6 (ix2 (0 : Fin 1) j) = sqn (m ((c : Thread nD τ).loc main_arg0)) j :=
  (congrFun (V_v6_eq m c) (ix2 (0 : Fin 1) j)).trans
    ((shapeCast_a_1a_apply _ shapeCasts_S4096_S1x4096 0 j).trans (sqv_at _ j))

end Cert.KernelIdeal.Hand

end
-- ==== Proof.BlockReads.lean ====
/-
  Each window's block at a grid point, read at coordinates.

  The grid has 8 × 16 points; point `t` has row-block `t / 16` and column-block `t % 16`. An element of a window's
  block sits in the window's array, on each axis, at the block index times the block's size plus its own coordinate.
  The block indices are decided once over the 128 points: the two tiles of `x` and the column of squared lengths
  move with the row-block or the column-block on axis 0, the row of squared lengths moves with the column-block on
  axis 1, the weight matrix is one block, and the output moves with the row-block on axis 0. So row `p` of a
  512-row block at row-block `t / 16` is row `512 · (t / 16) + p` of the array, and row `jj` of a 256-row block at
  column-block `t % 16` is row `256 · (t % 16) + jj`. The body's own slice of the weight matrix starts at row
  `256 · (t % 16)` as well. The output's blocks at the points with column-block 15 — where they are written back —
  tile the output array: row `r` is in the block of the point `16 · (r / 512) + 15`.
-/
import proofs.«175931_j86036784874092_2_alg».proof.Proof.FrameKI.Base
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block indices over the grid -/

/-- The first tile of `x` is at block `(t / 16, 0)`. -/
theorem idx0 : ∀ t : Fin cfg0.N, win0_0.index t (0 : Fin 2) = t.val / 16 ∧ win0_0.index t (1 : Fin 2) = 0 :=
  (by decide +kernel : ∀ t : Fin grid0.N, _)
/-- The second tile of `x` is at block `(t % 16, 0)`. -/
theorem idx1 : ∀ t : Fin cfg0.N, win0_1.index t (0 : Fin 2) = t.val % 16 ∧ win0_1.index t (1 : Fin 2) = 0 :=
  (by decide +kernel : ∀ t : Fin grid0.N, _)
/-- The column of squared lengths is at block `(t / 16, 0)`. -/
theorem idx2 : ∀ t : Fin cfg0.N, win0_2.index t (0 : Fin 2) = t.val / 16 ∧ win0_2.index t (1 : Fin 2) = 0 :=
  (by decide +kernel : ∀ t : Fin grid0.N, _)
/-- The row of squared lengths is at block `(0, t % 16)`. -/
theorem idx3 : ∀ t : Fin cfg0.N, win0_3.index t (0 : Fin 2) = 0 ∧ win0_3.index t (1 : Fin 2) = t.val % 16 :=
  (by decide +kernel : ∀ t : Fin grid0.N, _)
/-- The weight matrix is one block. -/
theorem idx4 : ∀ t : Fin cfg0.N, win0_4.index t (0 : Fin 2) = 0 ∧ win0_4.index t (1 : Fin 2) = 0 :=
  (by decide +kernel : ∀ t : Fin grid0.N, _)
/-- The output is at block `(t / 16, 0)`. -/
theorem idx5 : ∀ t : Fin cfg0.N, win0_5.index t (0 : Fin 2) = t.val / 16 ∧ win0_5.index t (1 : Fin 2) = 0 :=
  (by decide +kernel : ∀ t : Fin grid0.N, _)
/-- The body's slice of the weight matrix starts at row `256 · (t % 16)`, column 0. -/
theorem off1 : ∀ t : Fin cfg0.N, k0_off1 (grid0.coords t) (0 : Fin 2) = 256 * (t.val % 16) ∧ k0_off1 (grid0.coords t) (1 : Fin 2) = 0 :=
  (by decide +kernel : ∀ t : Fin grid0.N, _)

/-! ## The input blocks at coordinates -/

/-- Row `p` of the first tile of `x` at point `t` is row `512 · (t / 16) + p` of `x`. -/
theorem iblk0_at (c : Dev nD) (t : Fin cfg0.N) (p : Fin 512) (d : Fin 4096) :
    (iblk m c 0 t : Vec F S512x4096 .bf16) (ix2 p d)
      = (V m c main_v0 : S4096x4096.Idx → Elt F .bf16)
          (ix2 ⟨512 * (t.val / 16) + p.val, by have := t.isLt; have : cfg0.N = 128 := N_0; omega⟩ d) := by
  obtain ⟨e0, e1⟩ := idx0 t
  unfold iblk
  rw [View.read_apply]
  show V m c main_v0 _ = V m c main_v0 _
  congr 1
  funext a
  apply Fin.ext
  match a with
  | ⟨0, _⟩ => show win0_0.index t (0 : Fin 2) * 512 + 1 * p.val = 512 * (t.val / 16) + p.val; omega
  | ⟨1, _⟩ => show win0_0.index t (1 : Fin 2) * 4096 + 1 * d.val = d.val; omega

/-- Row `jj` of the second tile of `x` at point `t` is row `256 · (t % 16) + jj` of `x`. -/
theorem iblk1_at (c : Dev nD) (t : Fin cfg0.N) (jj : Fin 256) (d : Fin 4096) :
    (iblk m c 1 t : Vec F S256x4096 .bf16) (ix2 jj d)
      = (V m c main_v0 : S4096x4096.Idx → Elt F .bf16)
          (ix2 ⟨256 * (t.val % 16) + jj.val, by omega⟩ d) := by
  obtain ⟨e0, e1⟩ := idx1 t
  unfold iblk
  rw [View.read_apply]
  show V m c main_v0 _ = V m c main_v0 _
  congr 1
  funext a
  apply Fin.ext
  match a with
  | ⟨0, _⟩ => show win0_1.index t (0 : Fin 2) * 256 + 1 * jj.val = 256 * (t.val % 16) + jj.val; omega
  | ⟨1, _⟩ => show win0_1.index t (1 : Fin 2) * 4096 + 1 * d.val = d.val; omega

/-- Entry `p` of the block of squared lengths kept as a column is entry `512 · (t / 16) + p` of the column. -/
theorem iblk2_at (c : Dev nD) (t : Fin cfg0.N) (p : Fin 512) :
    (iblk m c 2 t : Vec F S512x1 .f32) (ix2 p (0 : Fin 1))
      = (V m c main_v5 : S4096x1.Idx → Elt F .f32)
          (ix2 ⟨512 * (t.val / 16) + p.val, by have := t.isLt; have : cfg0.N = 128 := N_0; omega⟩ (0 : Fin 1)) := by
  obtain ⟨e0, e1⟩ := idx2 t
  unfold iblk
  rw [View.read_apply]
  show V m c main_v5 _ = V m c main_v5 _
  congr 1
  funext a
  apply Fin.ext
  match a with
  | ⟨0, _⟩ => show win0_2.index t (0 : Fin 2) * 512 + 1 * p.val = 512 * (t.val / 16) + p.val; omega
  | ⟨1, _⟩ => show win0_2.index t (1 : Fin 2) * 1 + 1 * 0 = 0; omega

/-- Entry `jj` of the block of squared lengths kept as a row is entry `256 · (t % 16) + jj` of the row. -/
theorem iblk3_at (c : Dev nD) (t : Fin cfg0.N) (jj : Fin 256) :
    (iblk m c 3 t : Vec F S1x256 .f32) (ix2 (0 : Fin 1) jj)
      = (V m c main_v6 : S1x4096.Idx → Elt F .f32)
          (ix2 (0 : Fin 1) ⟨256 * (t.val % 16) + jj.val, by omega⟩) := by
  obtain ⟨e0, e1⟩ := idx3 t
  unfold iblk
  rw [View.read_apply]
  show V m c main_v6 _ = V m c main_v6 _
  congr 1
  funext a
  apply Fin.ext
  match a with
  | ⟨0, _⟩ => show win0_3.index t (0 : Fin 2) * 1 + 1 * 0 = 0; omega
  | ⟨1, _⟩ => show win0_3.index t (1 : Fin 2) * 256 + 1 * jj.val = 256 * (t.val % 16) + jj.val; omega

/-- Row `jj` of the body's slice of the weight matrix at point `t` is row `256 · (t % 16) + jj` of the matrix: the
window's block is the whole matrix, and the slice starts at row `256 · (t % 16)`. -/
theorem wslice_at (c : Dev nD) (t : Fin cfg0.N) (jj : Fin 256) (o : Fin 1024) :
    View.ld (iblk m c 4 t : Vec F S4096x1024 .bf16)
        (Rect.unit (s := S4096x1024) (k0_off1 (grid0.coords t)) S256x1024.size (k0_off1_inb (grid0.coords t))) (ix2 jj o)
      = (V m c main_v1 : S4096x1024.Idx → Elt F .bf16)
          (ix2 ⟨256 * (t.val % 16) + jj.val, by omega⟩ o) := by
  obtain ⟨e0, e1⟩ := idx4 t
  obtain ⟨o0, o1⟩ := off1 t
  unfold iblk
  show ((cfg0.win 4).blk t).view.read (Elt F) (V m c main_v1) _ = _
  rw [View.read_apply]
  show V m c main_v1 _ = V m c main_v1 _
  congr 1
  funext a
  apply Fin.ext
  match a with
  | ⟨0, _⟩ =>
    show win0_4.index t (0 : Fin 2) * 4096 + 1 * (k0_off1 (grid0.coords t) (0 : Fin 2) + 1 * jj.val) = 256 * (t.val % 16) + jj.val
    omega
  | ⟨1, _⟩ =>
    show win0_4.index t (1 : Fin 2) * 1024 + 1 * (k0_off1 (grid0.coords t) (1 : Fin 2) + 1 * o.val) = o.val
    omega

/-! ## The output's blocks -/

/-- Row `p` of the output's block at point `t`, read off any contents of the output array, is row
`512 · (t / 16) + p` of those contents. -/
theorem oblk_at (c : Dev nD) (Gb : Buf (Elt F) ((cfg0.win 5).arr.view.loc (c : Thread nD τ)))
    (t : Fin cfg0.N) (p : Fin 512) (o : Fin 1024) :
    (((cfg0.win 5).blk t).view.read (Elt F) Gb : Vec F S512x1024 .f32) (ix2 p o)
      = (Gb : S4096x1024.Idx → Elt F .f32)
          (ix2 ⟨512 * (t.val / 16) + p.val, by have := t.isLt; have : cfg0.N = 128 := N_0; omega⟩ o) := by
  obtain ⟨e0, e1⟩ := idx5 t
  rw [View.read_apply]
  show Gb _ = Gb _
  congr 1
  funext a
  apply Fin.ext
  match a with
  | ⟨0, _⟩ => show win0_5.index t (0 : Fin 2) * 512 + 1 * p.val = 512 * (t.val / 16) + p.val; omega
  | ⟨1, _⟩ => show win0_5.index t (1 : Fin 2) * 1024 + 1 * o.val = o.val; omega

/-- An index of the output array is in point `t`'s block iff each coordinate is in the block's range on its axis. -/
theorem mem_blk5 (t : Fin cfg0.N) (i : S4096x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v7).slice (win0_5.rect t)).set ↔ _
  rw [View.set_slice_whole, Rect.mem_set_unit]
  exact Iff.rfl

/-- The point `16 · (r / 512) + 15`, for `r` the row of the index `i`, writes its block back (its column-block is 15)
and its block holds `i` (its row-block is `r / 512`, and the block spans every column). -/
theorem cover5_at (t : Fin cfg0.N) (i : S4096x1024.Idx) (ht : t.val = 16 * ((i 0).val / 512) + 15) :
    (cfg0.win 5).flush t = true ∧ i ∈ ((cfg0.win 5).blk t).view.set := by
  have h0 : (i 0).val < 4096 := (i 0).isLt
  have h1 : (i 1).val < 1024 := (i 1).isLt
  obtain ⟨e0, e1⟩ := idx5 t
  refine ⟨(flush0_5 t).mpr (by omega), ?_⟩
  rw [mem_blk5]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 1024 ≤ (i 1).val ∧ (i 1).val < win0_5.index t (1 : Fin 2) * 1024 + 1024
    omega

/-- Every index of the output array is in the block of a point that writes its block back: row `r` is in the block
of the point `16 · (r / 512) + 15`. -/
theorem cover5_lit (i : S4096x1024.Idx) :
    ∃ t : Fin cfg0.N, (cfg0.win 5).flush t = true ∧ i ∈ ((cfg0.win 5).blk t).view.set :=
  ⟨⟨16 * ((i 0).val / 512) + 15, by
      have h0 : (i 0).val < 4096 := (i 0).isLt
      have hN : cfg0.N = 128 := N_0
      omega⟩, cover5_at _ i rfl⟩

/-- The same, over the output array's index type as the pipeline's value lemmas spell it. -/
theorem cover5 (c : Dev nD) : ∀ i : ((cfg0.win 5).arr.view.loc (c : Thread nD τ)).2.ty.Idx,
    ∃ t : Fin cfg0.N, (cfg0.win 5).flush t = true ∧ i ∈ ((cfg0.win 5).blk t).view.set :=
  fun i => cover5_lit i

end Cert.KernelIdeal.Hand

end
-- ==== Proof.LibBlockSum.lean ====
/-
  Two laws about finite sums in a commutative monoid.

  The first splits a sum over `n * b` consecutive indices into `n` consecutive blocks of `b` indices each: the
  index `b * k + r` is the `r`-th index of block `k`. The second solves a running-total recurrence: a sequence that
  starts at `z + f 0` and gains `f (n + 1)` at each step is `z` plus the partial sum of `f`. The third is the same for
  a running total that starts afresh at every multiple of `b`.
-/
import Mathlib

namespace Cert.Lib.BlockSum

/-- The `r`-th index of block `k`, among `n` blocks of `b` indices each, is below `n * b`:
`b * k + r < b * k + b = b * (k + 1) ≤ b * n`. -/
theorem block_lt {n b : ℕ} (k : Fin n) (r : Fin b) : b * k.val + r.val < n * b :=
  calc b * k.val + r.val < b * k.val + b := Nat.add_lt_add_left r.isLt _
    _ = b * (k.val + 1) := (Nat.mul_succ b k.val).symm
    _ ≤ b * n := Nat.mul_le_mul_left b k.isLt
    _ = n * b := Nat.mul_comm b n

/-- A sum over `n * b` indices is the sum, over the `n` blocks, of each block's sum over its `b` indices. The map
`(k, r) ↦ b * k + r` is a bijection from pairs onto the indices, so the sum is re-indexed along it and then
written as an iterated sum. -/
theorem sum_blocks {M : Type*} [AddCommMonoid M] (n b : ℕ) (f : Fin (n * b) → M) :
    ∑ J, f J = ∑ k : Fin n, ∑ r : Fin b, f ⟨b * k.val + r.val, block_lt k r⟩ := by
  rw [← Equiv.sum_comp finProdFinEquiv f, Fintype.sum_prod_type]
  refine Finset.sum_congr rfl fun k _ => Finset.sum_congr rfl fun r _ => ?_
  exact congrArg f (Fin.ext (by simp [finProdFinEquiv, Nat.add_comm]))

/-- The case of 4096 indices read as 16 blocks of 256. -/
theorem sum_blocks_16_256 {M : Type*} [AddCommMonoid M] (f : Fin 4096 → M) :
    ∑ J, f J = ∑ k : Fin 16, ∑ r : Fin 256, f ⟨256 * k.val + r.val, by omega⟩ :=
  sum_blocks 16 256 f

/-- A running total: if `a 0 = z + f 0` and `a (n + 1) = a n + f (n + 1)` for every `n`, then `a n` is `z` plus the
sum of `f 0, …, f n`. By induction on `n`; the step peels the last term off the partial sum. -/
theorem acc_eq {M : Type*} [AddCommMonoid M] (z : M) (f a : ℕ → M) (h0 : a 0 = z + f 0)
    (hs : ∀ n, a (n + 1) = a n + f (n + 1)) (n : ℕ) :
    a n = z + ∑ k ∈ Finset.range (n + 1), f k := by
  induction n with
  | zero => rw [h0, Finset.sum_range_one]
  | succ n ih => rw [hs, ih, Finset.sum_range_succ _ (n + 1), add_assoc]

/-- An accumulator with resets: if at every step `n` that is a multiple of `b` the accumulator is set to `z + f n`,
and at every other step it adds `f n` to what the step before left, then `r` steps into block `q` (with `r < b`) it
holds `z` plus the block's first `r + 1` addends, `f (b * q), …, f (b * q + r)`. By induction on `r`: the block's first
step is a multiple of `b`; a later step `b * q + (r + 1)` has remainder `r + 1 ≠ 0`, so it adds its addend to the
total of the `r + 1` before it. -/
theorem acc_reset {M : Type*} [AddCommMonoid M] (b N : ℕ) (z : M) (a f : ℕ → M)
    (h0 : ∀ n, n < N → n % b = 0 → a n = z + f n)
    (hs : ∀ n, n < N → n % b ≠ 0 → a n = a (n - 1) + f n)
    (q r : ℕ) (hr : r < b) (hN : b * q + r < N) :
    a (b * q + r) = z + ∑ k ∈ Finset.range (r + 1), f (b * q + k) := by
  induction r with
  | zero =>
    rw [Finset.sum_range_one]
    exact h0 _ hN (by rw [Nat.add_zero, Nat.mul_mod_right])
  | succ r ih =>
    have hmod : (b * q + (r + 1)) % b ≠ 0 := by
      rw [Nat.mul_add_mod, Nat.mod_eq_of_lt hr]
      exact Nat.succ_ne_zero r
    rw [hs _ hN hmod, show b * q + (r + 1) - 1 = b * q + r by omega, ih (by omega) (by omega),
      Finset.sum_range_succ _ (r + 1), add_assoc]

end Cert.Lib.BlockSum
-- ==== Proof.KernelValue.lean ====
/-
  The value of the idealized kernel program: its result array is the specification's function of the two
  arguments.

  At a grid point of row-block `q` and column-block `k` the body adds to the accumulator, at `(p, o)`, the part
  `∑ jj, κ (512 q + p) (256 k + jj) · w (256 k + jj) o` of the full sum: the window blocks are the rows
  `512 q + p` and `256 k + jj` of the rounded `x` (rounding is the identity here), the two layouts of the squared
  row lengths, and the rows `256 k + jj` of `w`. The accumulator is cleared to the zero word at column-block 0,
  so after column-block 15 it holds the zero word plus the sixteen parts, which is the sum over all 4096 indices
  (addition on the extended reals is commutative and associative: a sum over 4096 indices taken in 16 blocks of 256).
  That value is copied to the output block, and the eight row-blocks' output blocks tile the result array.
-/
import proofs.«175931_j86036784874092_2_alg».proof.Proof.FrameKI.Pieces
import proofs.«175931_j86036784874092_2_alg».proof.Proof.FrameKI.Run
import proofs.«175931_j86036784874092_2_alg».proof.Proof.Payload
import proofs.«175931_j86036784874092_2_alg».proof.Proof.HostSide
import proofs.«175931_j86036784874092_2_alg».proof.Proof.BlockReads
import proofs.«175931_j86036784874092_2_alg».proof.Proof.LibBlockSum
import proofs.«175931_j86036784874092_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Rbf Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The arguments and the addend of one grid point -/

/-- The first argument, the matrix `x`, as launched on core `c`. -/
abbrev argX (c : Dev nD) : SX.Idx → EReal := m ((c : Thread nD τ).loc main_arg0)
/-- The second argument, the matrix `w`. -/
abbrev argW (c : Dev nD) : SW.Idx → EReal := m ((c : Thread nD τ).loc main_arg1)

/-- Row `p` of row-block `q`. -/
def rowOf (q : ℕ) (p : Fin 512) : Fin 4096 := ⟨(512 * q + p.val) % 4096, Nat.mod_lt _ (by norm_num)⟩
/-- Row `jj` of column-block `k` (a column of the kernel matrix is a row of `x`). -/
def colOf (k : ℕ) (jj : Fin 256) : Fin 4096 := ⟨(256 * k + jj.val) % 4096, Nat.mod_lt _ (by norm_num)⟩

theorem rowOf_eq (q : ℕ) (p : Fin 512) (h : 512 * q + p.val < 4096) : rowOf q p = ⟨512 * q + p.val, h⟩ :=
  Fin.ext (Nat.mod_eq_of_lt h)
theorem colOf_eq (k : ℕ) (jj : Fin 256) (h : 256 * k + jj.val < 4096) : colOf k jj = ⟨256 * k + jj.val, h⟩ :=
  Fin.ext (Nat.mod_eq_of_lt h)

/-- What grid point `n` adds to the accumulator at `(p, o)`: the part of the sum `∑ j, κ i j · w j o` over the 256
    indices `j` of the point's column-block, for the row `i` of the point's row-block. -/
def addend (c : Dev nD) (p : Fin 512) (o : Fin 1024) (n : ℕ) : EReal :=
  ∑ jj : Fin 256, kern (argX m c) (rowOf (n / 16) p) (colOf (n % 16) jj) * argW m c (ix2 (colOf (n % 16) jj) o)

/-- The body's step on any blocks that are the blocks of `x`, of its squared row lengths and of `w` at row-block
    `q` and column-block `k`: the starting value plus the part of the sum over that column-block. -/
theorem step_var (X : SX.Idx → EReal) (Wm : SW.Idx → EReal) (q k : ℕ)
    (x0 : Vec Ideal S512x4096 .bf16) (x1 : Vec Ideal S256x4096 .bf16) (x2 : Vec Ideal S512x1 .f32) (x3 : Vec Ideal S1x256 .f32)
    (w4 : Vec Ideal S256x1024 .bf16) (prev : Vec Ideal S512x1024 .f32)
    (h0 : ∀ (p : Fin 512) (d : Fin 4096), x0 (ix2 p d) = X (ix2 (rowOf q p) d))
    (h1 : ∀ (jj : Fin 256) (d : Fin 4096), x1 (ix2 jj d) = X (ix2 (colOf k jj) d))
    (h2 : ∀ p : Fin 512, x2 (ix2 p (0 : Fin 1)) = sqn X (rowOf q p))
    (h3 : ∀ jj : Fin 256, x3 (ix2 (0 : Fin 1) jj) = sqn X (colOf k jj))
    (h4 : ∀ (jj : Fin 256) (o : Fin 1024), w4 (ix2 jj o) = Wm (ix2 (colOf k jj) o))
    (p : Fin 512) (o : Fin 1024) :
    k0_pay2 (F := Ideal) x0 x1 x2 x3 w4 prev (ix2 p o)
      = prev (ix2 p o) + ∑ jj : Fin 256, kern X (rowOf q p) (colOf k jj) * Wm (ix2 (colOf k jj) o) := by
  refine (Cert.Rbf.Payload.pay2_apply x0 x1 x2 x3 w4 prev p o).trans ?_
  refine congrArg (prev (ix2 p o) + ·) (Finset.sum_congr rfl fun jj _ => ?_)
  rw [h2, h3, h4]
  have hg : (∑ d : Fin 4096, x0 (ix2 p d) * x1 (ix2 jj d)) = gram X (rowOf q p) (colOf k jj) := by
    unfold gram
    refine Finset.sum_congr rfl fun d _ => ?_
    rw [h0, h1]
  rw [hg]
  rfl

/-- The step at grid point `t`, over the point's blocks: the starting value plus the point's addend. -/
theorem step_at (c : Dev nD) (t : Fin cfg0.N) (prev : Vec Ideal S512x1024 .f32) (p : Fin 512) (o : Fin 1024) :
    k0_pay2 (F := Ideal) (iblk m c 0 t) (iblk m c 1 t) (iblk m c 2 t) (iblk m c 3 t) (View.ld (iblk m c 4 t) (Rect.unit (s := S4096x1024) (k0_off1 (grid0.coords t)) S256x1024.size (k0_off1_inb (grid0.coords t)))) prev (ix2 p o)
      = prev (ix2 p o) + addend m c p o t.val := by
  have hN : t.val < 128 := lt_of_lt_of_eq t.isLt N_0
  exact step_var (argX m c) (argW m c) (t.val / 16) (t.val % 16) (iblk m c 0 t) (iblk m c 1 t) (iblk m c 2 t) (iblk m c 3 t) (View.ld (iblk m c 4 t) (Rect.unit (s := S4096x1024) (k0_off1 (grid0.coords t)) S256x1024.size (k0_off1_inb (grid0.coords t)))) prev
    (fun p d => (iblk0_at m c t p d).trans ((V_v0_at m c _ d).trans (congrArg (fun r => argX m c (ix2 r d)) (rowOf_eq _ _ (by omega)).symm)))
    (fun jj d => (iblk1_at m c t jj d).trans ((V_v0_at m c _ d).trans (congrArg (fun r => argX m c (ix2 r d)) (colOf_eq _ _ (by omega)).symm)))
    (fun p => (iblk2_at m c t p).trans ((V_v5_at m c _).trans (congrArg (sqn (argX m c)) (rowOf_eq _ _ (by omega)).symm)))
    (fun jj => (iblk3_at m c t jj).trans ((V_v6_at m c _).trans (congrArg (sqn (argX m c)) (colOf_eq _ _ (by omega)).symm)))
    (fun jj o => (wslice_at m c t jj o).trans ((V_v1_at m c _ o).trans (congrArg (fun r => argW m c (ix2 r o)) (colOf_eq _ _ (by omega)).symm)))
    p o

/-! ## The accumulator as a sequence in the point -/

/-- The accumulator's entry `(p, o)` after position `n`. -/
def aSeq (c : Dev nD) (p : Fin 512) (o : Fin 1024) (n : ℕ) : EReal :=
  if hn : n < cfg0.N then accAt m c n hn (ix2 p o) else 0

/-- At a column-block 0 point the accumulator is the zero word plus the point's addend. -/
theorem aSeq_reset (c : Dev nD) (p : Fin 512) (o : Fin 1024) (n : ℕ) (hn : n < 128) (h0 : n % 16 = 0) :
    aSeq m c p o n = c0 + addend m c p o n := by
  have hn' : n < cfg0.N := lt_of_lt_of_eq hn N_0.symm
  unfold aSeq; rw [dif_pos hn']
  rw [(accAt_A m c ⟨n, hn'⟩ h0 (by show ¬n % 16 = 15; omega) : accAt m c n hn' = _), sout0_A_eq]
  exact (step_at m c ⟨n, hn'⟩ _ p o).trans (congrArg (· + _) (Cert.Rbf.Payload.pay1_apply p o))

/-- At any other point it is what the point before left plus the point's addend. -/
theorem aSeq_step (c : Dev nD) (p : Fin 512) (o : Fin 1024) (n : ℕ) (hn : n < 128) (h0 : n % 16 ≠ 0) :
    aSeq m c p o n = aSeq m c p o (n - 1) + addend m c p o n := by
  have hn' : n < cfg0.N := lt_of_lt_of_eq hn N_0.symm
  have hp : n - 1 < cfg0.N := Nat.lt_of_le_of_lt (Nat.sub_le _ _) hn'
  unfold aSeq; rw [dif_pos hn', dif_pos hp]
  by_cases h1 : n % 16 = 15
  · rw [(accAt_C m c ⟨n, hn'⟩ h0 h1 : accAt m c n hn' = _), sout0_C_eq]
    exact step_at m c ⟨n, hn'⟩ _ p o
  · rw [(accAt_B m c ⟨n, hn'⟩ h0 h1 : accAt m c n hn' = _), sout0_B_eq]
    exact step_at m c ⟨n, hn'⟩ _ p o

/-- After the last point of row-block `q` the accumulator holds the whole sum: the sixteen column-blocks' addends
    are the sum over all 4096 indices, and the zero word is zero. -/
theorem aSeq_last (c : Dev nD) (q : ℕ) (hq : q < 8) (p : Fin 512) (o : Fin 1024) :
    aSeq m c p o (16 * q + 15) = Gat (argX m c) (argW m c) (rowOf q p) o := by
  rw [Cert.Lib.BlockSum.acc_reset 16 128 c0 (aSeq m c p o) (addend m c p o) (aSeq_reset m c p o)
    (fun n hn h => aSeq_step m c p o n hn h) q 15 (by norm_num) (by omega)]
  rw [Cert.Rbf.Payload.c0_eq, zero_add, Finset.sum_range]
  unfold Gat
  rw [Cert.Lib.BlockSum.sum_blocks_16_256]
  refine Finset.sum_congr rfl fun k _ => ?_
  unfold addend
  have e1 : (16 * q + k.val) / 16 = q := by omega
  have e2 : (16 * q + k.val) % 16 = k.val := by omega
  rw [e1, e2]
  refine Finset.sum_congr rfl fun jj _ => ?_
  rw [colOf_eq k.val jj (by omega)]

/-! ## The output array -/

/-- The specification's result as the contents of the output array. -/
def Gbuf (c : Dev nD) : Buf (Elt Ideal) ((cfg0.win 5).arr.view.loc (c : Thread nD τ)) := G (argX m c) (argW m c)

/-- What a column-block 15 point writes back is its block of the specification's result. -/
theorem flushed_eq (c : Dev nD) (t : Fin cfg0.N) (hf : (cfg0.win 5).flush t = true) :
    (dats m 0 c).flushed 5 t = ((cfg0.win 5).blk t).view.read (Elt Ideal) (Gbuf m c) := by
  have h1 : t.val % 16 = 15 := (flush0_5 t).mp hf
  have h0 : ¬t.val % 16 = 0 := by omega
  have hN : t.val < 128 := lt_of_lt_of_eq t.isLt N_0
  show (cfg0.win 5).cut (grid0.coords t) ((dats m 0 c).after 5 t) = _
  rw [after0_5]
  funext y
  obtain ⟨p, o, rfl⟩ : ∃ (p : Fin 512) (o : Fin 1024), y = ix2 p o := ⟨y 0, y 1, eq_ix2 y⟩
  refine Eq.trans ?_ (oblk_at c (Gbuf m c) t p o).symm
  have hs : aSeq m c p o t.val = outAt m c t (ix2 p o) := by
    unfold aSeq; rw [dif_pos t.isLt, accAt_C m c t h0 h1, sout0_C_eq, outAt_C m c t h0 h1, out0_C_eq]
  have ht : t.val = 16 * (t.val / 16) + 15 := by omega
  have hl : aSeq m c p o t.val = Gat (argX m c) (argW m c) (rowOf (t.val / 16) p) o := by
    have h := aSeq_last m c (t.val / 16) (by omega) p o
    rwa [← ht] at h
  show outAt m c t (ix2 p o) = _
  rw [← hs, hl, rowOf_eq _ _ (by omega)]
  rfl

/-- The output array after the run is the specification's result. -/
theorem final5 (c : Dev nD) : (dats m 0 c).arrAt 5 cfg0.N = Gbuf m c :=
  (dats m 0 c).arrAt_eq_of_cover 5 (Gbuf m c) (fun t hf => flushed_eq m c t hf) (cover5 c)

/-! ## The run with its result named -/

/-- Every weakly fair execution of the idealized kernel program terminates with the result array at the
    specification's function of the two arguments, and the arguments unchanged. -/
theorem run_value : θ_run defs (onTc (τ := τ) (main (F := Ideal))) ⟨m, fun _ => 0, ρ⟩ (fun r => ∀ c : Dev nD,
      r.2.mem ((c.tc : Thread nD τ).loc main_v7) = G (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).1 5).trans (final5 m c),
       ((h c).2 main_arg0 (Pipeline.mem_restRefs_of main_arg0 (by decide) (by decide))).trans (V_main_arg0 m c),
       ((h c).2 main_arg1 (Pipeline.mem_restRefs_of main_arg1 (by decide) (by decide))).trans (V_main_arg1 m c)⟩)
    (run_main (F := Ideal) m ρ)

end Cert.KernelIdeal.Hand

end
-- ==== Proof.RefSide.lean ====
/-
  The reference program computes the specification.

  Stage by stage, at row `i` and column `j` of the 4096 × 4096 intermediate arrays: the squares `x i d · x i d`;
  their row sums from the zero word, `s i`; the column and the row of those sums spread over the square,
  `s i` and `s j`; their sum `s i + s j`; the transposed argument `x j i`; the matrix of inner products
  `g i j = ∑ d, x i d · x j d`; the two constants spread over the square; `2 · g i j`; the difference
  `(s i + s j) − 2 · g i j`; its product with `−½`; the exponential `κ i j`; and last the product of that
  matrix with `w`, `∑ j, κ i j · w j o`. Each stage is read at an index built from its coordinates and
  identified with the corresponding function of the specification.
-/
import proofs.«175931_j86036784874092_2_alg».proof.Proof.Gen.ReferenceIdeal.Read
import proofs.«175931_j86036784874092_2_alg».proof.Proof.Spec
import Idealize.ShloMosaic.Lib.ValueIdx
import Idealize.ShloMosaic.Lib.ValueLayout
import Idealize.ShloMosaic.PureOps.Ideal.Laws

noncomputable section

namespace Cert.Rbf.RefSide

open Idealize.ShloMosaic Idealize.ShloMosaic.ValueIdx Idealize.ShloMosaic.TcCoe Idealize.SL.Sem
  Idealize.ShloMosaic.StableHlo
open Cert.ReferenceIdeal Cert.ReferenceIdeal.Gen Cert.ReferenceIdeal.Read

/-- The argument `x` as the reference program types it. -/
abbrev XArr : Type := (⟨Cert.ReferenceIdeal.S4096x4096, .f32⟩ : BufTy).Contents (Elt Ideal)
/-- The argument `w` as the reference program types it. -/
abbrev WArr : Type := (⟨Cert.ReferenceIdeal.S4096x1024, .f32⟩ : BufTy).Contents (Elt Ideal)

/-! ## The composed index functions, by coordinates -/

/-- Entry `k` of row `i`, as the row sum reads it. -/
theorem idx_v1 (i k : Fin 4096) : idx_main_v1 (ix1 i) k = ix2 i k :=
  funext fun a => Fin.ext (by match a with | ⟨0, _⟩ => rfl | ⟨1, _⟩ => rfl)

/-- The column entry `(i, 0)` reads the vector at `i`. -/
theorem idx_v2 (i : Fin 4096) : idx_main_v2 (ix2 i (0 : Fin 1)) = ix1 i :=
  funext fun a => Fin.ext (by match a with | ⟨0, _⟩ => rfl)

/-- The row entry `(0, j)` reads the vector at `j`. -/
theorem idx_v3 (j : Fin 4096) : idx_main_v3 (ix2 (0 : Fin 1) j) = ix1 j :=
  funext fun a => Fin.ext (by match a with | ⟨0, _⟩ => rfl)

/-- Spreading a column over the square: `(i, j)` reads `(i, 0)`. -/
theorem idx_v4 (i j : Fin 4096) : idx_main_v4 (ix2 i j) = ix2 i (0 : Fin 1) :=
  funext fun a => Fin.ext (by match a with | ⟨0, _⟩ => rfl | ⟨1, _⟩ => rfl)

/-- Spreading a row over the square: `(i, j)` reads `(0, j)`. -/
theorem idx_v5 (i j : Fin 4096) : idx_main_v5 (ix2 i j) = ix2 (0 : Fin 1) j :=
  funext fun a => Fin.ext (by match a with | ⟨0, _⟩ => rfl | ⟨1, _⟩ => rfl)

/-- The transpose: `(i, j)` reads `(j, i)`. -/
theorem idx_v7 (i j : Fin 4096) : idx_main_v7 (ix2 i j) = ix2 j i :=
  funext fun a => Fin.ext (by match a with | ⟨0, _⟩ => rfl | ⟨1, _⟩ => rfl)

/-- The first product's left factor at `(i, j)`, term `k`: entry `(i, k)`. -/
theorem lidx_v8 (i j k : Fin 4096) : lidx_main_v8 (ix2 i j) k = ix2 i k :=
  funext fun a => Fin.ext (by match a with | ⟨0, _⟩ => rfl | ⟨1, _⟩ => rfl)

/-- The first product's right factor at `(i, j)`, term `k`: entry `(k, j)`. -/
theorem ridx_v8 (i j k : Fin 4096) : ridx_main_v8 (ix2 i j) k = ix2 k j :=
  funext fun a => Fin.ext (by match a with | ⟨0, _⟩ => rfl | ⟨1, _⟩ => rfl)

/-- The last product's left factor at `(i, o)`, term `k`: entry `(i, k)`. -/
theorem lidx_v15 (i : Fin 4096) (o : Fin 1024) (k : Fin 4096) : lidx_main_v15 (ix2 i o) k = ix2 i k :=
  funext fun a => Fin.ext (by match a with | ⟨0, _⟩ => rfl | ⟨1, _⟩ => rfl)

/-- The last product's right factor at `(i, o)`, term `k`: entry `(k, o)`. -/
theorem ridx_v15 (i : Fin 4096) (o : Fin 1024) (k : Fin 4096) : ridx_main_v15 (ix2 i o) k = ix2 k o :=
  funext fun a => Fin.ext (by match a with | ⟨0, _⟩ => rfl | ⟨1, _⟩ => rfl)

/-! ## The stages, each at an index -/

/-- The row sums of the squares, from the zero word: `s i`. -/
theorem v1_at (x : XArr) (i : Fin 4096) : val_main_v1 (F := Ideal) x (ix1 i) = sqn x i := by
  rw [val_main_v1_apply, val_main_cst_apply]
  unfold sqn c0
  refine congrArg (_ + ·) (Finset.sum_congr rfl fun k _ => ?_)
  rw [val_main_v0_apply, idx_v1]
  rfl

/-- The sums as a column: `(i, 0) ↦ s i`. -/
theorem v2_at (x : XArr) (i : Fin 4096) : val_main_v2 (F := Ideal) x (ix2 i (0 : Fin 1)) = sqn x i := by
  rw [val_main_v2_apply, idx_v2, v1_at]

/-- The sums as a row: `(0, j) ↦ s j`. -/
theorem v3_at (x : XArr) (j : Fin 4096) : val_main_v3 (F := Ideal) x (ix2 (0 : Fin 1) j) = sqn x j := by
  rw [val_main_v3_apply, idx_v3, v1_at]

/-- The column spread over the square: `(i, j) ↦ s i`. -/
theorem v4_at (x : XArr) (i j : Fin 4096) : val_main_v4 (F := Ideal) x (ix2 i j) = sqn x i := by
  rw [val_main_v4_apply, idx_v4, v2_at]

/-- The row spread over the square: `(i, j) ↦ s j`. -/
theorem v5_at (x : XArr) (i j : Fin 4096) : val_main_v5 (F := Ideal) x (ix2 i j) = sqn x j := by
  rw [val_main_v5_apply, idx_v5, v3_at]

/-- Their sum: `(i, j) ↦ s i + s j`. -/
theorem v6_at (x : XArr) (i j : Fin 4096) : val_main_v6 (F := Ideal) x (ix2 i j) = sqn x i + sqn x j := by
  rw [val_main_v6_apply, v4_at, v5_at]
  rfl

/-- The transposed argument: `(i, j) ↦ x j i`. -/
theorem v7_at (x : XArr) (i j : Fin 4096) : val_main_v7 (F := Ideal) x (ix2 i j) = x (ix2 j i) := by
  rw [val_main_v7_apply, idx_v7]

/-- The matrix of inner products: `(i, j) ↦ g i j = ∑ d, x i d · x j d`. -/
theorem v8_at (x : XArr) (i j : Fin 4096) : val_main_v8 (F := Ideal) x (ix2 i j) = gram x i j := by
  rw [val_main_v8_apply]
  unfold gram
  refine Finset.sum_congr rfl fun k _ => ?_
  rw [lidx_v8, ridx_v8, v7_at]

/-- The constant `2` spread over the square. -/
theorem v9_at (i j : Fin 4096) : val_main_v9 (F := Ideal) (ix2 i j) = c2 := by
  rw [val_main_v9_apply, val_main_cst_0_apply]
  rfl

/-- `(i, j) ↦ 2 · g i j`. -/
theorem v10_at (x : XArr) (i j : Fin 4096) : val_main_v10 (F := Ideal) x (ix2 i j) = c2 * gram x i j := by
  rw [val_main_v10_apply, v9_at, v8_at]
  rfl

/-- `(i, j) ↦ (s i + s j) − 2 · g i j`: the squared distance of rows `i` and `j`. -/
theorem v11_at (x : XArr) (i j : Fin 4096) :
    val_main_v11 (F := Ideal) x (ix2 i j) = (sqn x i + sqn x j) - c2 * gram x i j := by
  rw [val_main_v11_apply, v6_at, v10_at]
  rfl

/-- The constant `−½` spread over the square. -/
theorem v12_at (i j : Fin 4096) : val_main_v12 (F := Ideal) (ix2 i j) = ch := by
  rw [val_main_v12_apply, val_main_cst_1_apply]
  rfl

/-- `(i, j) ↦ −½ · ((s i + s j) − 2 · g i j)`. -/
theorem v13_at (x : XArr) (i j : Fin 4096) :
    val_main_v13 (F := Ideal) x (ix2 i j) = ch * ((sqn x i + sqn x j) - c2 * gram x i j) := by
  rw [val_main_v13_apply, v12_at, v11_at]
  rfl

/-- The Gaussian kernel matrix: `(i, j) ↦ κ i j = exp (−½ · ((s i + s j) − 2 · g i j))`. -/
theorem v14_at (x : XArr) (i j : Fin 4096) : val_main_v14 (F := Ideal) x (ix2 i j) = kern x i j := by
  rw [val_main_v14_apply, v13_at]
  rfl

/-! ## The result -/

/-- The reference's result is the kernel matrix times `w`: at `(i, o)` it is `∑ j, κ i j · w j o`. -/
theorem ref_eq (x : (⟨Cert.ReferenceIdeal.S4096x4096, .f32⟩ : BufTy).Contents (Elt Ideal))
    (w : (⟨Cert.ReferenceIdeal.S4096x1024, .f32⟩ : BufTy).Contents (Elt Ideal)) :
    Cert.ReferenceIdeal.Read.val_main_v15 (F := Ideal) x w = Cert.Rbf.G x w := by
  funext a
  obtain ⟨i, o, rfl⟩ : ∃ (i : Fin 4096) (o : Fin 1024), a = ix2 i o := ⟨a 0, a 1, eq_ix2 a⟩
  rw [val_main_v15_apply, G_ix2]
  unfold Gat
  refine Finset.sum_congr rfl fun k _ => ?_
  rw [lidx_v15, ridx_v15, v14_at]

end Cert.Rbf.RefSide

end
-- ==== Proof.lean ====
/-
  The certificate: a Gaussian-kernel matrix of the rows of `x` times `w`, computed tile by tile, equals the plain
  formula on the extended reals.

  For `x` of 4096 × 4096 and `w` of 4096 × 1024 both programs compute `out i o = ∑ j, κ i j · w j o` with
  `κ i j = exp (−½ · ((s i + s j) − 2 · ∑ d, x i d · x j d))` and `s i = 0 + ∑ d, x i d · x i d`. The reference
  forms the whole 4096 × 4096 kernel matrix and multiplies. The kernel walks an 8 × 16 grid: at row-block `q` and
  column-block `k` it forms the 512 × 256 tile of `κ`, multiplies it by rows `256 k …` of `w`, and adds the product
  to an accumulator that it clears at `k = 0` and copies out at `k = 15`. Read on the extended reals (every change of
  float format the identity, every matrix product and row sum a plain finite sum) the two are the same function:
  the only difference is that the kernel takes the sum over `j` in sixteen blocks of 256, from the zero word —
  associativity and commutativity of addition, which hold on the extended reals without any finiteness, so the
  precondition is never opened.

  The five claims: each program runs to the end without a fault and leaves its two arguments unchanged (for the
  kernel programs, the pipeline's run with the accumulator's contents tracked from point to point; the matrix `x`
  is read by two windows at once, each holding half of it); the idealization rewrote nothing; and the two idealized
  programs end with equal results.
-/
import proofs.«175931_j86036784874092_2_alg».proof.Defs
import proofs.«175931_j86036784874092_2_alg».proof.Proof.Gen.Kernel
import proofs.«175931_j86036784874092_2_alg».proof.Proof.Gen.KernelIdeal
import proofs.«175931_j86036784874092_2_alg».proof.Proof.Gen.ReferenceIdeal
import proofs.«175931_j86036784874092_2_alg».proof.Proof.Gen.Pre_finite_inputs
import proofs.«175931_j86036784874092_2_alg».proof.Proof.FrameK.Run
import proofs.«175931_j86036784874092_2_alg».proof.Proof.FrameKI.Run
import proofs.«175931_j86036784874092_2_alg».proof.Proof.KernelValue
import proofs.«175931_j86036784874092_2_alg».proof.Proof.RefSide
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result array at the same function
    of the arguments: the kernel's by the accumulated sum, the reference's by its operations read index by index. -/
theorem algebraic : Cert.algebraic_KernelIdeal_ReferenceIdeal := by
  intro m ρ m' ρ' _ hagree
  refine ⟨fun c => Cert.Rbf.G (Cert.KernelIdeal.Hand.argX m c) (Cert.KernelIdeal.Hand.argW m c), Cert.KernelIdeal.Hand.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.Rbf.RefSide.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
